-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S3072x1024 : Shape := ⟨2, ![3072, 1024]⟩
abbrev S512x1024 : Shape := ⟨2, ![512, 1024]⟩
abbrev S512x3072 : Shape := ⟨2, ![512, 3072]⟩
abbrev S256x1024 : Shape := ⟨2, ![256, 1024]⟩
abbrev S256x1 : Shape := ⟨2, ![256, 1]⟩
abbrev S256x512 : Shape := ⟨2, ![256, 512]⟩
abbrev S256 : Shape := ⟨1, ![256]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S3072x1024, .f32⟩
  | .hbm, ⟨5, _⟩ => ⟨S3072x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S8192x1024, .bf16⟩
  | .local _ .vmem, ⟨12, _⟩ => ⟨S8192x1024, .bf16⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

@[reducible] def k1_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v10 : BitVec 32 := Scalar.muli arg5 c512_i32
  v10
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v10 : BitVec 32 := Scalar.muli arg5 c512_i32
  let v11 : BitVec 32 := v10
  let v12 : Index := Scalar.indexCast v11
  let c0_6 : Index := 0#32
  ![v12.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S1024x1024_S1024x1024_S1024x1024_S3072x1024_d0 : Shape.Concatenates [S1024x1024, S1024x1024, S1024x1024] S3072x1024 0
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S512x1024_S512x1024 : S512x1024.ShapeCasts S512x1024
  reduces_S256x512_S256 : S256x512.Reduces [1] S256
  shapeCasts_S256_S256x1 : S256.ShapeCasts S256x1
  broadcasts_S256x1_S256x512 : S256x1.Broadcasts S256x512
  broadcasts_S256x1_S256x1024 : S256x1.Broadcasts S256x1024
  dot_S512x1024_S3072x1024_S512x3072_1_1_0_0_n_n_wf : DotDims.WF S512x1024 S3072x1024 S512x3072 [1] [1] [0] [0] [] []
  dot_S256x1024_S512x1024_S256x512_1_1_0_0_n_n_wf : DotDims.WF S256x1024 S512x1024 S256x512 [1] [1] [0] [0] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x1024.size a ≤ S8192x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .bf16 = 32 ∨ (Rect.block (s := S8192x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x1024.size a ≤ S8192x1024.size a
  hwx1_2 : ∀ i : grid1.Coords, EltTy.bits .bf16 = 32 ∨ (Rect.block (s := S8192x1024) S8192x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x1024.size a
  hwx1_3 : ∀ i : grid1.Coords, EltTy.bits .f32 = 32 ∨ (Rect.block (s := S8192x1024) S256x1024.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S8192x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S1024x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K_Region0.lean ====
/-
  The projection launch, point by point, at the buffer contents `V` the launch is entered from.

  At grid point `t` the body is handed rows [512·t, 512·t + 512) of the input and the whole stacked weight matrix,
  multiplies the one by the transpose of the other, and stores the three column thirds of the product into its three
  output blocks. What each output block holds afterwards is therefore one function (`out0_2`, `out0_3`, `out0_4`)
  of the two input blocks; the input blocks are left as they were.
-/
import proofs.«111051_j6975026889338_2_alg».proof.Proof.Gen.Kernel.Launch
import proofs.«111051_j6975026889338_2_alg».proof.Proof.Gen.Kernel.Skeleton
import proofs.«111051_j6975026889338_2_alg».proof.Proof.Gen.Kernel.Points
import proofs.«111051_j6975026889338_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The stacked weights' staging buffer holds the whole matrix at every point: it is fetched once and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rX : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0

/-! ## What the body leaves in each output block -/

/-- The query third of the product of the input rows with the stacked weights. -/
def out0_2 (x0 : Vec F S512x1024 .f32) (x1 : Vec F S3072x1024 .bf16) : Vec F S512x1024 .bf16 :=
  View.canon [⟨rX, k0_pay2 (View.ld x0 rX) (View.ld x1 rW)⟩]
/-- The key third. -/
def out0_3 (x0 : Vec F S512x1024 .f32) (x1 : Vec F S3072x1024 .bf16) : Vec F S512x1024 .bf16 :=
  View.canon [⟨rX, k0_pay3 (View.ld x0 rX) (View.ld x1 rW)⟩]
/-- The value third. -/
def out0_4 (x0 : Vec F S512x1024 .f32) (x1 : Vec F S3072x1024 .bf16) : Vec F S512x1024 .bf16 :=
  View.canon [⟨rX, k0_pay4 (View.ld x0 rX) (View.ld x1 rW)⟩]

/-- One whole-block store covers the block. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 2000000 in
/-- On whole staging buffers, the inputs' at `x0`, `x1` and the outputs' at anything, the body runs to the end, leaves the
    inputs as they were and each output at its third of the product. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .f32) (x1 : Vec F S3072x1024 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The launch's proof data -/

/-- The arrays as the launch finds them; after the body at point `t` each input's buffer at its block and each output's
    at its third of the product of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K_Region1.lean ====
/-
  The attention launch, point by point, at the buffer contents `V` the launch is entered from.

  At grid point `t` the body is handed rows [256·t, 256·t + 256) of the queries and the whole key and value matrices. It
  walks the keys in sixteen chunks of 512 rows carrying, for every query row, a running maximum, a running denominator
  and a running unnormalised output; after the last chunk it divides the output by the denominator and stores the block.
  What the output block holds afterwards is the one store's value, a function of the three input blocks that the run of
  the body finds (`kernelRun1`, read back as `out1_3`); the input blocks are left as they were.
-/
import proofs.«111051_j6975026889338_2_alg».proof.Proof.Gen.Kernel.Launch
import proofs.«111051_j6975026889338_2_alg».proof.Proof.Gen.Kernel.Skeleton
import proofs.«111051_j6975026889338_2_alg».proof.Proof.Gen.Kernel.Points
import proofs.«111051_j6975026889338_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the whole matrix at every point: fetched once, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body on any staging buffers -/

/-- One staging buffer of the output window, through which its contents are stated (the choice does not matter). -/
abbrev VO1_3 : View sig .tc .vmem S256x1024 .f32 := (Memref.whole cc1_stg3_0 : Memref sig .tc .vmem S256x1024 .f32).view
/-- Each window's current staging buffer at point `t`, and that it is a whole buffer. -/
abbrev ms1_0 (t : Fin cfg1.N) : Memref sig .tc .vmem S256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)

set_option maxHeartbeats 4000000 in
/-- The pieces the body's stores leave in the output's staging buffer, WITH the proof that on whole staging buffers — the
    three inputs' at `x0`, `x1`, `x2`, the output's at anything — the body runs to the end (through its sixteen trips by
    the carried-value invariant), leaves the inputs as they were and the output with those pieces written. -/
noncomputable def kernelRun1 (c : Dev nD) (i : grid1.Coords)
    (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x1024 .f32) (harg4 : arg4.IsWhole)
    (x0 : Vec F S256x1024 .bf16) (x1 : Vec F S8192x1024 .bf16) (x2 : Vec F S8192x1024 .bf16) :
    { L : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc1__attn_kernel i arg1 harg1 arg2 harg2 arg3 harg3 arg4 harg4) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The body's pieces tile the output block (one whole-block store), so they cover it. -/
theorem cover1 (c : Dev nD) (i : grid1.Coords)
    (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x1024 .f32) (harg4 : arg4.IsWhole)
    (x0 : Vec F S256x1024 .bf16) (x1 : Vec F S8192x1024 .bf16) (x2 : Vec F S8192x1024 .bf16) (y : S256x1024.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S256x1024.size (by sl_kernel_rfl) y

/-- What the body leaves in the output's staging buffer: its pieces read back over anything. -/
def out1_3 (c : Dev nD) (i : grid1.Coords)
    (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x1024 .f32) (harg4 : arg4.IsWhole)
    (x0 : Vec F S256x1024 .bf16) (x1 : Vec F S8192x1024 .bf16) (x2 : Vec F S8192x1024 .bf16) : Vec F S256x1024 .f32 :=
  VO1_3.read (Elt F) (VO1_3.writes (Elt F) VO1_3.junk (kernelRun1 c i arg1 harg1 arg2 harg2 arg3 harg3 arg4 harg4 x0 x1 x2).1)

/-! ## The launch's proof data -/

/-- The arrays as the launch finds them; after the body at point `t` each input's buffer at its block and the output's at
    what the body's run leaves of the three input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K_Run.lean ====
/-
  The whole program as three segments — the two host operations that stack and narrow the weights, the projection launch,
  the attention launch — and what every unscoped buffer holds when it returns.

  The contents are followed boundary by boundary: as launched; after the host operations; after the projection launch
  (its three output arrays at what its write-backs leave, everything else as before); after the attention launch (its
  output array likewise). No segment writes an argument, so each argument is read back through the boundaries to its
  launch contents; the result array ends at what the attention launch's write-backs leave.
-/
import proofs.«111051_j6975026889338_2_alg».proof.Proof.K_Region0
import proofs.«111051_j6975026889338_2_alg».proof.Proof.K_Region1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the projection launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch (the attention launch's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention launch (what the program returns from). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The input: no host operation writes it, the projection launch only reads it, the attention launch does not touch it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- Weight matrix 1: the host operations only read it and no launch touches it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Weight matrix 2: the host operations only read it and no launch touches it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- Weight matrix 3: the host operations only read it and no launch touches it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-- The result array ends at what the attention launch's write-backs leave. -/
theorem W3_main_v3 (c : Dev nD) : W3 m ρ c (Proc.devRef .tc main_v3) = (dat1 (V2 m ρ) c).arrAt 3 cfg1.N :=
  W3_arr m ρ c 3

/-! ## The proof data family and the thread state -/

abbrev adm : (p : Fin 2) → (pcfgs (F := F) p).Adm := fun p => (cfgs p).toPCfg_adm
/-- Each launch's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- Launch 0 over the thread state: its arrays split out of the unscoped buffers and put back at the exit contents; the
    generator register into the launch's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays split out of the unscoped buffers and put back at the exit contents; the
    generator register into the launch's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result named: the result array ends at what the attention launch's write-backs leave, the arguments as launched. -/
theorem run_value : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Frm

end
-- ==== Proof.KI_Region0.lean ====
/-
  The projection launch, point by point, at the buffer contents `V` the launch is entered from.

  At grid point `t` the body is handed rows [512·t, 512·t + 512) of the input and the whole stacked weight matrix,
  multiplies the one by the transpose of the other, and stores the three column thirds of the product into its three
  output blocks. What each output block holds afterwards is therefore one function (`out0_2`, `out0_3`, `out0_4`)
  of the two input blocks; the input blocks are left as they were.
-/
import proofs.«111051_j6975026889338_2_alg».proof.Proof.Gen.KernelIdeal.Launch
import proofs.«111051_j6975026889338_2_alg».proof.Proof.Gen.KernelIdeal.Skeleton
import proofs.«111051_j6975026889338_2_alg».proof.Proof.Gen.KernelIdeal.Points
import proofs.«111051_j6975026889338_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The stacked weights' staging buffer holds the whole matrix at every point: it is fetched once and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rX : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0

/-! ## What the body leaves in each output block -/

/-- The query third of the product of the input rows with the stacked weights. -/
def out0_2 (x0 : Vec F S512x1024 .f32) (x1 : Vec F S3072x1024 .bf16) : Vec F S512x1024 .bf16 :=
  View.canon [⟨rX, k0_pay2 (View.ld x0 rX) (View.ld x1 rW)⟩]
/-- The key third. -/
def out0_3 (x0 : Vec F S512x1024 .f32) (x1 : Vec F S3072x1024 .bf16) : Vec F S512x1024 .bf16 :=
  View.canon [⟨rX, k0_pay3 (View.ld x0 rX) (View.ld x1 rW)⟩]
/-- The value third. -/
def out0_4 (x0 : Vec F S512x1024 .f32) (x1 : Vec F S3072x1024 .bf16) : Vec F S512x1024 .bf16 :=
  View.canon [⟨rX, k0_pay4 (View.ld x0 rX) (View.ld x1 rW)⟩]

/-- One whole-block store covers the block. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 2000000 in
/-- On whole staging buffers, the inputs' at `x0`, `x1` and the outputs' at anything, the body runs to the end, leaves the
    inputs as they were and each output at its third of the product. -/
theorem sound_kernel0 (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .f32) (x1 : Vec F S3072x1024 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The launch's proof data -/

/-- The arrays as the launch finds them; after the body at point `t` each input's buffer at its block and each output's
    at its third of the product of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI_Region1.lean ====
/-
  The attention launch, point by point, at the buffer contents `V` the launch is entered from.

  At grid point `t` the body is handed rows [256·t, 256·t + 256) of the queries and the whole key and value matrices. It
  walks the keys in sixteen chunks of 512 rows carrying, for every query row, a running maximum, a running denominator
  and a running unnormalised output; after the last chunk it divides the output by the denominator and stores the block.
  What the output block holds afterwards is the one store's value, a function of the three input blocks that the run of
  the body finds (`kernelRun1`, read back as `out1_3`); the input blocks are left as they were.
-/
import proofs.«111051_j6975026889338_2_alg».proof.Proof.Gen.KernelIdeal.Launch
import proofs.«111051_j6975026889338_2_alg».proof.Proof.Gen.KernelIdeal.Skeleton
import proofs.«111051_j6975026889338_2_alg».proof.Proof.Gen.KernelIdeal.Points
import proofs.«111051_j6975026889338_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the whole matrix at every point: fetched once, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body on any staging buffers -/

/-- One staging buffer of the output window, through which its contents are stated (the choice does not matter). -/
abbrev VO1_3 : View sig .tc .vmem S256x1024 .f32 := (Memref.whole cc1_stg3_0 : Memref sig .tc .vmem S256x1024 .f32).view
/-- Each window's current staging buffer at point `t`, and that it is a whole buffer. -/
abbrev ms1_0 (t : Fin cfg1.N) : Memref sig .tc .vmem S256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)

set_option maxHeartbeats 4000000 in
/-- The pieces the body's stores leave in the output's staging buffer, WITH the proof that on whole staging buffers — the
    three inputs' at `x0`, `x1`, `x2`, the output's at anything — the body runs to the end (through its sixteen trips by
    the carried-value invariant), leaves the inputs as they were and the output with those pieces written. -/
noncomputable def kernelRun1 (c : Dev nD) (i : grid1.Coords)
    (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x1024 .f32) (harg4 : arg4.IsWhole)
    (x0 : Vec F S256x1024 .bf16) (x1 : Vec F S8192x1024 .bf16) (x2 : Vec F S8192x1024 .bf16) :
    { L : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E (cc1__attn_kernel i arg1 harg1 arg2 harg2 arg3 harg3 arg4 harg4) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The body's pieces tile the output block (one whole-block store), so they cover it. -/
theorem cover1 (c : Dev nD) (i : grid1.Coords)
    (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x1024 .f32) (harg4 : arg4.IsWhole)
    (x0 : Vec F S256x1024 .bf16) (x1 : Vec F S8192x1024 .bf16) (x2 : Vec F S8192x1024 .bf16) (y : S256x1024.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S256x1024.size (by sl_kernel_rfl) y

/-- What the body leaves in the output's staging buffer: its pieces read back over anything. -/
def out1_3 (c : Dev nD) (i : grid1.Coords)
    (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x1024 .f32) (harg4 : arg4.IsWhole)
    (x0 : Vec F S256x1024 .bf16) (x1 : Vec F S8192x1024 .bf16) (x2 : Vec F S8192x1024 .bf16) : Vec F S256x1024 .f32 :=
  VO1_3.read (Elt F) (VO1_3.writes (Elt F) VO1_3.junk (kernelRun1 c i arg1 harg1 arg2 harg2 arg3 harg3 arg4 harg4 x0 x1 x2).1)

/-! ## The launch's proof data -/

/-- The arrays as the launch finds them; after the body at point `t` each input's buffer at its block and the output's at
    what the body's run leaves of the three input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI_Run.lean ====
/-
  The whole program as three segments — the two host operations that stack and narrow the weights, the projection launch,
  the attention launch — and what every unscoped buffer holds when it returns.

  The contents are followed boundary by boundary: as launched; after the host operations; after the projection launch
  (its three output arrays at what its write-backs leave, everything else as before); after the attention launch (its
  output array likewise). No segment writes an argument, so each argument is read back through the boundaries to its
  launch contents; the result array ends at what the attention launch's write-backs leave.
-/
import proofs.«111051_j6975026889338_2_alg».proof.Proof.KI_Region0
import proofs.«111051_j6975026889338_2_alg».proof.Proof.KI_Region1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the projection launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch (the attention launch's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention launch (what the program returns from). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The input: no host operation writes it, the projection launch only reads it, the attention launch does not touch it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- Weight matrix 1: the host operations only read it and no launch touches it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Weight matrix 2: the host operations only read it and no launch touches it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

/-- Weight matrix 3: the host operations only read it and no launch touches it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-- The result array ends at what the attention launch's write-backs leave. -/
theorem W3_main_v3 (c : Dev nD) : W3 m ρ c (Proc.devRef .tc main_v3) = (dat1 (V2 m ρ) c).arrAt 3 cfg1.N :=
  W3_arr m ρ c 3

/-! ## The proof data family and the thread state -/

abbrev adm : (p : Fin 2) → (pcfgs (F := F) p).Adm := fun p => (cfgs p).toPCfg_adm
/-- Each launch's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- Launch 0 over the thread state: its arrays split out of the unscoped buffers and put back at the exit contents; the
    generator register into the launch's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays split out of the unscoped buffers and put back at the exit contents; the
    generator register into the launch's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result named: the result array ends at what the attention launch's write-backs leave, the arguments as launched. -/
theorem run_value : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Frm

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.AttnSpec.lean ====
/-
  The mathematics both programs compute, one query row at a time, on the extended reals.

  A query row has a score `s j` against each of `n` keys and each key carries a value row `v j`. The reference
  normalises the scores in one pass: with `M` the largest score, the weight of key `j` is exp(s j − M) over the
  sum of all such numerators, and the output is the weighted sum of the value rows (`refOut`). The kernel walks
  the keys in `C` chunks of `B`, carrying a running maximum `m`, a running denominator `l` and a running
  unnormalised output `acc`, each rescaled by exp(m_old − m_new) when the maximum moves, and divides once at the
  end (`online`, `onlineOut`). Key `r` of chunk `c` is key number B·c + r.

  The scores and values themselves are projections: row `i` of the input against row `j` of a weight matrix
  (`proj`), a query's score against a key the dot product of their projected rows.
-/
import Idealize.ShloMosaic.PureOps.Ideal
import Idealize.ShloMosaic.Lib.ValueIdx
import proofs.«111051_j6975026889338_2_alg».proof.Proof.LibBlockSum

noncomputable section

namespace Cert.AttnSpec

open Idealize.ShloMosaic Idealize.ShloMosaic.ValueIdx Cert.LibBlockSum
open scoped BigOperators

/-- The word of −∞: where a running maximum starts. -/
def negInf : EReal := Ideal.ofBits .f32 0xFF800000#32
/-- The zero word: where a running sum starts. -/
def zero : EReal := Ideal.ofBits .f32 0x00000000#32

/-! ## One pass over all keys -/

section OnePass
variable {n D : ℕ}

/-- The largest score of the row (against the −∞ word, twice: once as the fold's start, once outside it). -/
def refMax (s : Fin n → EReal) : EReal := max negInf ((Finset.univ : Finset (Fin n)).fold max negInf s)
/-- The numerator of key `j`'s weight. -/
def refNum (s : Fin n → EReal) (j : Fin n) : EReal := Ideal.exp (s j - refMax s)
/-- The denominator: the zero word plus the sum of the numerators. -/
def refDen (s : Fin n → EReal) : EReal := zero + ∑ j : Fin n, refNum s j
/-- The output at value coordinate `d`: the weighted sum of the value rows. -/
def refOut (s : Fin n → EReal) (v : Fin n → Fin D → EReal) (d : Fin D) : EReal :=
  ∑ j : Fin n, Ideal.div (refNum s j) (refDen s) * v j d

end OnePass

/-! ## Chunk by chunk -/

section Chunked
variable {C B D : ℕ}

/-- The carried triple (running maximum, running denominator, running unnormalised output) before chunk `c`. -/
def online (s : Fin (C * B) → EReal) (v : Fin (C * B) → Fin D → EReal) : ℕ → EReal × EReal × (Fin D → EReal)
  | 0 => (negInf, zero, fun _ => zero)
  | c + 1 =>
    if h : c < C then
      let p := online s v c
      let m' := max p.1 ((Finset.univ : Finset (Fin B)).fold max negInf fun j => s (blockIdx ⟨c, h⟩ j))
      let a := Ideal.exp (p.1 - m')
      (m', a * p.2.1 + ∑ j : Fin B, Ideal.exp (s (blockIdx ⟨c, h⟩ j) - m'),
        fun d => a * p.2.2 d + ∑ j : Fin B, Ideal.exp (s (blockIdx ⟨c, h⟩ j) - m') * v (blockIdx ⟨c, h⟩ j) d)
    else online s v c

/-- The kernel's output at value coordinate `d`: the unnormalised output over the denominator, after all chunks. -/
def onlineOut (s : Fin (C * B) → EReal) (v : Fin (C * B) → Fin D → EReal) (d : Fin D) : EReal :=
  Ideal.div ((online s v C).2.2 d) ((online s v C).2.1)

end Chunked

/-! ## Projections and scores -/

/-- Row `i` of `X` against row `j` of `W`. -/
def proj {N K M : ℕ} (X : (⟨2, ![N, K]⟩ : Shape).Idx → EReal) (W : (⟨2, ![M, K]⟩ : Shape).Idx → EReal) (i : Fin N) (j : Fin M) : EReal :=
  ∑ k : Fin K, X (ix2 i k) * W (ix2 j k)

/-- Query row `i` against key row `j`: the dot product of the two projected rows. -/
def score {N K M : ℕ} (X : (⟨2, ![N, K]⟩ : Shape).Idx → EReal) (Wq Wk : (⟨2, ![M, K]⟩ : Shape).Idx → EReal) (i j : Fin N) : EReal :=
  ∑ e : Fin M, proj X Wq i e * proj X Wk j e

/-- The attention output at (i, d), in the one-pass form. -/
def attnAt {N K M : ℕ} (X : (⟨2, ![N, K]⟩ : Shape).Idx → EReal) (Wq Wk Wv : (⟨2, ![M, K]⟩ : Shape).Idx → EReal) (i : Fin N) (d : Fin M) : EReal :=
  refOut (fun j => score X Wq Wk i j) (fun j e => proj X Wv j e) d

end Cert.AttnSpec

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KI_Value0.lean ====
/-
  The projection launch's three output arrays, read index by index on the extended reals.

  At grid point `t` the body multiplies rows [512·t, 512·t + 512) of the input by the transpose of the stacked weight
  matrix and stores the three column thirds of the product. Read at an index, column `o + j` of row `r` of the
  product is the dot product of input row `r` with row `o + j` of the stack (the narrowing conversions and the
  same-shape cast are identities here). The launch finds the input as launched and the stack as the three weight
  matrices laid one under the other, so row `o + j` of the stack is row `j` of the matrix that starts at row `o`.
  The output blocks tile each output array by rows, so each array ends holding, at (i, j), the dot product of input
  row `i` with row `j` of its weight matrix: the projection `proj` of the specification.
-/
import proofs.«111051_j6975026889338_2_alg».proof.Proof.KI_Run
import proofs.«111051_j6975026889338_2_alg».proof.Proof.AttnSpec
import proofs.«111051_j6975026889338_2_alg».proof.Proof.LibMatmul2d
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val0

open Cert.KernelIdeal Cert.KernelIdeal.Gen Cert.KernelIdeal.Frm Cert.AttnSpec
open Idealize.ShloMosaic Idealize.ShloMosaic.ValueIdx Idealize.ShloMosaic.TcCoe Idealize.SL.Sem
open Idealize.ShloMosaic.Pipeline (Dat)
open scoped BigOperators

/-- Row `o + j` of the stacked weight matrix: row `j` of the third that starts at row `o`. -/
def wrow (o : ℕ) (ho : o + 1024 ≤ 3072) (j : Fin 1024) : Fin 3072 := ⟨o + j.val, by have := j.isLt; omega⟩

/-- The product of the input rows with the transpose of the stacked weights, at (r, j'). -/
theorem pay1_apply (x0 : Vec Ideal S512x1024 .f32) (x1 : Vec Ideal S3072x1024 .bf16) (r : Fin 512) (j' : Fin 3072) :
    k0_pay1 x0 x1 (ix2 r j') = ∑ k : Fin 1024, x0 (ix2 r k) * x1 (ix2 j' k) := by
  unfold k0_pay1
  have e3 : shapeCast S3072x1024 x1 shapeCasts_S3072x1024_S3072x1024 = x1 := shapeCast_self (s := S3072x1024) (α := Elt Ideal .bf16) x1 _
  show FloatOps.matmul (F := Ideal) (φ₁ := .bf16) (φ₂ := .bf16) (DotDims.transposedRhs 512 1024 3072) none (truncf .bf16 x0 bitsLt_bf16_f32)
      (shapeCast S3072x1024 x1 shapeCasts_S3072x1024_S3072x1024) (constant (F := Ideal) S512x3072 .f32 0x00000000#32) (ix2 r j') = _
  rw [e3]
  exact Cert.LibMatmul2d.matmul_transposedRhs_apply (M := 512) (K := 1024) (N := 3072) (truncf .bf16 x0 bitsLt_bf16_f32) x1 r j'

theorem hz : (![0, 0] : Fin 2 → Nat) = fun _ => 0 := funext fun a => by fin_cases a <;> rfl

/-- A column third of a 512×3072 matrix at (r, j): column `o + j` of the whole. -/
theorem slice_apply (o : ℕ) (ho : o + 1024 ≤ 3072) (P : FVec Ideal S512x3072 .bf16) (h : S512x3072.Slices ![0, o] S512x1024)
    (r : Fin 512) (j : Fin 1024) : extractStridedSlice S512x1024 ![0, o] P h (ix2 r j) = P (ix2 r (wrow o ho j)) :=
  extractStridedSlice_apply ![0, o] P h (ix2 r j) (ix2 r (wrow o ho j)) (fun a => by
    match a with
    | ⟨0, _⟩ => show r.val = 0 + r.val; omega
    | ⟨1, _⟩ => rfl)

/-- The query third of the product at (r, j). -/
theorem pay2_apply (x0 : Vec Ideal S512x1024 .f32) (x1 : Vec Ideal S3072x1024 .bf16) (r : Fin 512) (j : Fin 1024) :
    k0_pay2 x0 x1 (ix2 r j) = ∑ k : Fin 1024, x0 (ix2 r k) * x1 (ix2 (wrow 0 (by decide) j) k) := by
  unfold k0_pay2
  exact (slice_apply 0 (by decide) (k0_pay1 x0 x1) slices_S512x3072_o0_0_S512x1024 r j).trans (pay1_apply x0 x1 r _)
/-- The key third. -/
theorem pay3_apply (x0 : Vec Ideal S512x1024 .f32) (x1 : Vec Ideal S3072x1024 .bf16) (r : Fin 512) (j : Fin 1024) :
    k0_pay3 x0 x1 (ix2 r j) = ∑ k : Fin 1024, x0 (ix2 r k) * x1 (ix2 (wrow 1024 (by decide) j) k) := by
  unfold k0_pay3
  exact (slice_apply 1024 (by decide) (k0_pay1 x0 x1) slices_S512x3072_o0_1024_S512x1024 r j).trans (pay1_apply x0 x1 r _)
/-- The value third. -/
theorem pay4_apply (x0 : Vec Ideal S512x1024 .f32) (x1 : Vec Ideal S3072x1024 .bf16) (r : Fin 512) (j : Fin 1024) :
    k0_pay4 x0 x1 (ix2 r j) = ∑ k : Fin 1024, x0 (ix2 r k) * x1 (ix2 (wrow 2048 (by decide) j) k) := by
  unfold k0_pay4
  exact (slice_apply 2048 (by decide) (k0_pay1 x0 x1) slices_S512x3072_o0_2048_S512x1024 r j).trans (pay1_apply x0 x1 r _)

/-- A block index's row and column. -/
abbrev brow (y : S512x1024.Idx) : Fin 512 := ⟨(y 0).val, idx2_lt0 y⟩
abbrev bcol (y : S512x1024.Idx) : Fin 1024 := ⟨(y 1).val, idx2_lt1 y⟩

/-- What the body leaves in the query block, at any index of the block. -/
theorem out2_at (x0 : Vec Ideal S512x1024 .f32) (x1 : Vec Ideal S3072x1024 .bf16) (y : S512x1024.Idx) :
    out0_2 x0 x1 y = ∑ k : Fin 1024, x0 (ix2 (brow y) k) * x1 (ix2 (wrow 0 (by decide) (bcol y)) k) := by
  obtain ⟨r, j, rfl⟩ : ∃ (r : Fin 512) (j : Fin 1024), y = ix2 r j := ⟨y 0, y 1, eq_ix2 y⟩
  unfold out0_2
  rw [View.canon_unit_zero hz]
  simp only [View.ld_unit_zero (S := S512x1024) hz, View.ld_unit_zero (S := S3072x1024) hz]
  exact pay2_apply x0 x1 r j
theorem out3_at (x0 : Vec Ideal S512x1024 .f32) (x1 : Vec Ideal S3072x1024 .bf16) (y : S512x1024.Idx) :
    out0_3 x0 x1 y = ∑ k : Fin 1024, x0 (ix2 (brow y) k) * x1 (ix2 (wrow 1024 (by decide) (bcol y)) k) := by
  obtain ⟨r, j, rfl⟩ : ∃ (r : Fin 512) (j : Fin 1024), y = ix2 r j := ⟨y 0, y 1, eq_ix2 y⟩
  unfold out0_3
  rw [View.canon_unit_zero hz]
  simp only [View.ld_unit_zero (S := S512x1024) hz, View.ld_unit_zero (S := S3072x1024) hz]
  exact pay3_apply x0 x1 r j
theorem out4_at (x0 : Vec Ideal S512x1024 .f32) (x1 : Vec Ideal S3072x1024 .bf16) (y : S512x1024.Idx) :
    out0_4 x0 x1 y = ∑ k : Fin 1024, x0 (ix2 (brow y) k) * x1 (ix2 (wrow 2048 (by decide) (bcol y)) k) := by
  obtain ⟨r, j, rfl⟩ : ∃ (r : Fin 512) (j : Fin 1024), y = ix2 r j := ⟨y 0, y 1, eq_ix2 y⟩
  unfold out0_4
  rw [View.canon_unit_zero hz]
  simp only [View.ld_unit_zero (S := S512x1024) hz, View.ld_unit_zero (S := S3072x1024) hz]
  exact pay4_apply x0 x1 r j

/-! ## What the launch finds -/

section Found
variable (m : (ℓ : Loc nD τ sig) → Buf (Elt Ideal) ℓ) (ρ : Dev nD → PrngReg)

/-- The input as launched: no host operation writes it. -/
theorem V1_arg0 (c : Dev nD) : V1 (F := Ideal) m ρ c main_arg0 = m ((c : Thread nD τ).loc main_arg0) := by
  show StableHlo.after hostOps0 (W0 m ρ c) (Proc.devRef .tc main_arg0) = _
  after_results

/-- The second operand: the three weight matrices stacked (the narrowing is the identity on the extended reals). -/
theorem V1_stack (c : Dev nD) :
    (V1 (F := Ideal) m ρ c main_v1 : S3072x1024.Idx → EReal)
      = concatenate S3072x1024 0 [⟨S1024x1024, (m ((c : Thread nD τ).loc main_arg1) : S1024x1024.Idx → EReal)⟩,
          ⟨S1024x1024, (m ((c : Thread nD τ).loc main_arg2) : S1024x1024.Idx → EReal)⟩,
          ⟨S1024x1024, (m ((c : Thread nD τ).loc main_arg3) : S1024x1024.Idx → EReal)⟩]
          concatenates_S1024x1024_S1024x1024_S1024x1024_S3072x1024_d0 := by
  show StableHlo.after hostOps0 (W0 m ρ c) (Proc.devRef .tc main_v1) = _
  after_results
  rfl

/-- Rows 0 … 1023 of the stack are the first weight matrix. -/
theorem stack_q (c : Dev nD) (j k : Fin 1024) :
    (V1 (F := Ideal) m ρ c main_v1 : S3072x1024.Idx → EReal) (ix2 (wrow 0 (by decide) j) k) = m ((c : Thread nD τ).loc main_arg1) (ix2 j k) :=
  (congrFun (V1_stack m ρ c) _).trans
    (concatenate_apply_piece (0 : Fin 2) _ _ (ix2 (wrow 0 (by decide) j) k) 0 (by show (0 : ℕ) < 3; decide) S1024x1024 _ rfl rfl 0 rfl (ix2 j k)
      (fun b hb => by match b with | ⟨0, _⟩ => exact absurd rfl hb | ⟨1, _⟩ => rfl) rfl)
/-- Rows 1024 … 2047 are the second. -/
theorem stack_k (c : Dev nD) (j k : Fin 1024) :
    (V1 (F := Ideal) m ρ c main_v1 : S3072x1024.Idx → EReal) (ix2 (wrow 1024 (by decide) j) k) = m ((c : Thread nD τ).loc main_arg2) (ix2 j k) :=
  (congrFun (V1_stack m ρ c) _).trans
    (concatenate_apply_piece (0 : Fin 2) _ _ (ix2 (wrow 1024 (by decide) j) k) 1 (by show (1 : ℕ) < 3; decide) S1024x1024 _ rfl rfl 1024 rfl (ix2 j k)
      (fun b hb => by match b with | ⟨0, _⟩ => exact absurd rfl hb | ⟨1, _⟩ => rfl) rfl)
/-- Rows 2048 … 3071 are the third. -/
theorem stack_v (c : Dev nD) (j k : Fin 1024) :
    (V1 (F := Ideal) m ρ c main_v1 : S3072x1024.Idx → EReal) (ix2 (wrow 2048 (by decide) j) k) = m ((c : Thread nD τ).loc main_arg3) (ix2 j k) :=
  (congrFun (V1_stack m ρ c) _).trans
    (concatenate_apply_piece (0 : Fin 2) _ _ (ix2 (wrow 2048 (by decide) j) k) 2 (by show (2 : ℕ) < 3; decide) S1024x1024 _ rfl rfl 2048 rfl (ix2 j k)
      (fun b hb => by match b with | ⟨0, _⟩ => exact absurd rfl hb | ⟨1, _⟩ => rfl) rfl)

end Found

/-! ## From blocks to arrays -/

/-- Row `i` of `A` against row `o + j` of `B`, at (i, j): what an output array of the launch ends holding. -/
def Gp (o : ℕ) (ho : o + 1024 ≤ 3072) (A : S8192x1024.Idx → EReal) (B : S3072x1024.Idx → EReal) : S8192x1024.Idx → EReal :=
  fun idx => ∑ k : Fin 1024, A (ix2 (⟨(idx 0).val, (idx 0).isLt⟩ : Fin 8192) k) * B (ix2 (wrow o ho (⟨(idx 1).val, (idx 1).isLt⟩ : Fin 1024)) k)

/-- The index maps, decided over the grid: the input rows' block moves with the output blocks, at block row `t`; every
    other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

section Blocks
variable (V : (c : Dev nD) → (b : Ref sig .tc) → Buf (Elt Ideal) ((c : Thread nD τ).loc b))

/-- The query block that point `t` writes back is block `t` of `Gp 0` of the launch's two operands. -/
theorem flushed2_eq (c : Dev nD) (t : Fin cfg0.N) :
    (dat0 (F := Ideal) V c).flushed 2 t
      = ((cfg0.win 2).blk t).view.read (Elt Ideal) (Gp 0 (by decide) (V c main_arg0) (V c main_v1)) := by
  show (cfg0.win 2).cut (grid0.coords t) ((dat0 V c).after 2 t) = _
  rw [after0_2]
  obtain ⟨e00, e01, e10, e11, e2, e3, e4⟩ := idx_facts t
  funext y
  refine (out2_at _ _ _).trans ?_
  show _ = Gp 0 (by decide) (V c main_arg0) (V c main_v1) (((cfg0.win 2).blk t).view.emb y)
  unfold Gp
  refine Finset.sum_congr rfl fun k _ => ?_
  have h0 : ((cfg0.win 0).blk t).view.emb (ix2 (⟨(y 0).val, (y 0).isLt⟩ : Fin 512) k)
      = ix2 (⟨((((cfg0.win 2).blk t).view.emb y) 0).val, ((((cfg0.win 2).blk t).view.emb y) 0).isLt⟩ : Fin 8192) k := by
    funext a; apply Fin.ext
    match a with
    | ⟨0, _⟩ => show win0_0.index t (0 : Fin 2) * 512 + 1 * (y 0).val = win0_2.index t (0 : Fin 2) * 512 + 1 * (y 0).val; omega
    | ⟨1, _⟩ => show win0_0.index t (1 : Fin 2) * 1024 + 1 * k.val = k.val; omega
  have h1 : ((cfg0.win 1).blk t).view.emb (ix2 (wrow 0 (by decide) (⟨(y 1).val, (y 1).isLt⟩ : Fin 1024)) k)
      = ix2 (wrow 0 (by decide) (⟨((((cfg0.win 2).blk t).view.emb y) 1).val, ((((cfg0.win 2).blk t).view.emb y) 1).isLt⟩ : Fin 1024)) k := by
    funext a; apply Fin.ext
    match a with
    | ⟨0, _⟩ => show win0_1.index t (0 : Fin 2) * 3072 + 1 * (0 + (y 1).val) = 0 + (win0_2.index t (1 : Fin 2) * 1024 + 1 * (y 1).val); omega
    | ⟨1, _⟩ => show win0_1.index t (1 : Fin 2) * 1024 + 1 * k.val = k.val; omega
  exact congrArg₂ (· * ·) (congrArg (V c main_arg0) h0) (congrArg (V c main_v1) h1)

/-- An index of the query array is in point `t`'s block iff each coordinate is in the block's range on its axis. -/
theorem mem_blk2 (t : Fin cfg0.N) (i : S8192x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v2_0).slice (win0_2.rect t)).set ↔ _
  rw [View.set_slice_whole, Rect.mem_set_unit]
  exact Iff.rfl

/-- Every index of the query array is in the block of the point its row falls in. -/
theorem cover2 (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  have hN : (i 0).val / 512 < cfg0.N := by rw [show cfg0.N = 16 from N_0]; omega
  obtain ⟨e00, e01, e10, e11, e2, e3, e4⟩ := idx_facts ⟨(i 0).val / 512, hN⟩
  refine ⟨⟨(i 0).val / 512, hN⟩, flush0_2 _, ?_⟩
  rw [mem_blk2]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    rw [e2.1]
    show (i 0).val / 512 * 512 ≤ (i 0).val ∧ (i 0).val < (i 0).val / 512 * 512 + 512
    omega
  | ⟨1, _⟩ =>
    show win0_2.index ⟨(i 0).val / 512, hN⟩ (1 : Fin 2) * 1024 ≤ (i 1).val ∧ (i 1).val < win0_2.index ⟨(i 0).val / 512, hN⟩ (1 : Fin 2) * 1024 + 1024
    rw [e2.2]; omega

/-- The query array after the launch. -/
theorem final2 (c : Dev nD) :
    (dat0 (F := Ideal) V c).arrAt 2 cfg0.N = Gp 0 (by decide) (V c main_arg0) (V c main_v1) :=
  (dat0 V c).arrAt_eq_of_cover 2 _ (fun t _ => flushed2_eq V c t) cover2

/-- The key block that point `t` writes back is block `t` of `Gp 1024` of the launch's two operands. -/
theorem flushed3_eq (c : Dev nD) (t : Fin cfg0.N) :
    (dat0 (F := Ideal) V c).flushed 3 t
      = ((cfg0.win 3).blk t).view.read (Elt Ideal) (Gp 1024 (by decide) (V c main_arg0) (V c main_v1)) := by
  show (cfg0.win 3).cut (grid0.coords t) ((dat0 V c).after 3 t) = _
  rw [after0_3]
  obtain ⟨e00, e01, e10, e11, e2, e3, e4⟩ := idx_facts t
  funext y
  refine (out3_at _ _ _).trans ?_
  show _ = Gp 1024 (by decide) (V c main_arg0) (V c main_v1) (((cfg0.win 3).blk t).view.emb y)
  unfold Gp
  refine Finset.sum_congr rfl fun k _ => ?_
  have h0 : ((cfg0.win 0).blk t).view.emb (ix2 (⟨(y 0).val, (y 0).isLt⟩ : Fin 512) k)
      = ix2 (⟨((((cfg0.win 3).blk t).view.emb y) 0).val, ((((cfg0.win 3).blk t).view.emb y) 0).isLt⟩ : Fin 8192) k := by
    funext a; apply Fin.ext
    match a with
    | ⟨0, _⟩ => show win0_0.index t (0 : Fin 2) * 512 + 1 * (y 0).val = win0_3.index t (0 : Fin 2) * 512 + 1 * (y 0).val; omega
    | ⟨1, _⟩ => show win0_0.index t (1 : Fin 2) * 1024 + 1 * k.val = k.val; omega
  have h1 : ((cfg0.win 1).blk t).view.emb (ix2 (wrow 1024 (by decide) (⟨(y 1).val, (y 1).isLt⟩ : Fin 1024)) k)
      = ix2 (wrow 1024 (by decide) (⟨((((cfg0.win 3).blk t).view.emb y) 1).val, ((((cfg0.win 3).blk t).view.emb y) 1).isLt⟩ : Fin 1024)) k := by
    funext a; apply Fin.ext
    match a with
    | ⟨0, _⟩ => show win0_1.index t (0 : Fin 2) * 3072 + 1 * (1024 + (y 1).val) = 1024 + (win0_3.index t (1 : Fin 2) * 1024 + 1 * (y 1).val); omega
    | ⟨1, _⟩ => show win0_1.index t (1 : Fin 2) * 1024 + 1 * k.val = k.val; omega
  exact congrArg₂ (· * ·) (congrArg (V c main_arg0) h0) (congrArg (V c main_v1) h1)

/-- An index of the key array is in point `t`'s block iff each coordinate is in the block's range on its axis. -/
theorem mem_blk3 (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2_1).slice (win0_3.rect t)).set ↔ _
  rw [View.set_slice_whole, Rect.mem_set_unit]
  exact Iff.rfl

/-- Every index of the key array is in the block of the point its row falls in. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : (i 0).val / 512 < cfg0.N := by rw [show cfg0.N = 16 from N_0]; omega
  obtain ⟨e00, e01, e10, e11, e2, e3, e4⟩ := idx_facts ⟨(i 0).val / 512, hN⟩
  refine ⟨⟨(i 0).val / 512, hN⟩, flush0_3 _, ?_⟩
  rw [mem_blk3]
  intro a
  match a with
  | ⟨0, _⟩ =>
    show win0_3.index ⟨(i 0).val / 512, hN⟩ (0 : Fin 2) * 512 ≤ (i 0).val ∧ (i 0).val < win0_3.index ⟨(i 0).val / 512, hN⟩ (0 : Fin 2) * 512 + 512
    rw [e3.1]
    show (i 0).val / 512 * 512 ≤ (i 0).val ∧ (i 0).val < (i 0).val / 512 * 512 + 512
    omega
  | ⟨1, _⟩ =>
    show win0_3.index ⟨(i 0).val / 512, hN⟩ (1 : Fin 2) * 1024 ≤ (i 1).val ∧ (i 1).val < win0_3.index ⟨(i 0).val / 512, hN⟩ (1 : Fin 2) * 1024 + 1024
    rw [e3.2]; omega

/-- The key array after the launch. -/
theorem final3 (c : Dev nD) :
    (dat0 (F := Ideal) V c).arrAt 3 cfg0.N = Gp 1024 (by decide) (V c main_arg0) (V c main_v1) :=
  (dat0 V c).arrAt_eq_of_cover 3 _ (fun t _ => flushed3_eq V c t) cover3

/-- The value block that point `t` writes back is block `t` of `Gp 2048` of the launch's two operands. -/
theorem flushed4_eq (c : Dev nD) (t : Fin cfg0.N) :
    (dat0 (F := Ideal) V c).flushed 4 t
      = ((cfg0.win 4).blk t).view.read (Elt Ideal) (Gp 2048 (by decide) (V c main_arg0) (V c main_v1)) := by
  show (cfg0.win 4).cut (grid0.coords t) ((dat0 V c).after 4 t) = _
  rw [after0_4]
  obtain ⟨e00, e01, e10, e11, e2, e3, e4⟩ := idx_facts t
  funext y
  refine (out4_at _ _ _).trans ?_
  show _ = Gp 2048 (by decide) (V c main_arg0) (V c main_v1) (((cfg0.win 4).blk t).view.emb y)
  unfold Gp
  refine Finset.sum_congr rfl fun k _ => ?_
  have h0 : ((cfg0.win 0).blk t).view.emb (ix2 (⟨(y 0).val, (y 0).isLt⟩ : Fin 512) k)
      = ix2 (⟨((((cfg0.win 4).blk t).view.emb y) 0).val, ((((cfg0.win 4).blk t).view.emb y) 0).isLt⟩ : Fin 8192) k := by
    funext a; apply Fin.ext
    match a with
    | ⟨0, _⟩ => show win0_0.index t (0 : Fin 2) * 512 + 1 * (y 0).val = win0_4.index t (0 : Fin 2) * 512 + 1 * (y 0).val; omega
    | ⟨1, _⟩ => show win0_0.index t (1 : Fin 2) * 1024 + 1 * k.val = k.val; omega
  have h1 : ((cfg0.win 1).blk t).view.emb (ix2 (wrow 2048 (by decide) (⟨(y 1).val, (y 1).isLt⟩ : Fin 1024)) k)
      = ix2 (wrow 2048 (by decide) (⟨((((cfg0.win 4).blk t).view.emb y) 1).val, ((((cfg0.win 4).blk t).view.emb y) 1).isLt⟩ : Fin 1024)) k := by
    funext a; apply Fin.ext
    match a with
    | ⟨0, _⟩ => show win0_1.index t (0 : Fin 2) * 3072 + 1 * (2048 + (y 1).val) = 2048 + (win0_4.index t (1 : Fin 2) * 1024 + 1 * (y 1).val); omega
    | ⟨1, _⟩ => show win0_1.index t (1 : Fin 2) * 1024 + 1 * k.val = k.val; omega
  exact congrArg₂ (· * ·) (congrArg (V c main_arg0) h0) (congrArg (V c main_v1) h1)

/-- An index of the value array is in point `t`'s block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v2_2).slice (win0_4.rect t)).set ↔ _
  rw [View.set_slice_whole, Rect.mem_set_unit]
  exact Iff.rfl

/-- Every index of the value array is in the block of the point its row falls in. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : (i 0).val / 512 < cfg0.N := by rw [show cfg0.N = 16 from N_0]; omega
  obtain ⟨e00, e01, e10, e11, e2, e3, e4⟩ := idx_facts ⟨(i 0).val / 512, hN⟩
  refine ⟨⟨(i 0).val / 512, hN⟩, flush0_4 _, ?_⟩
  rw [mem_blk4]
  intro a
  match a with
  | ⟨0, _⟩ =>
    show win0_4.index ⟨(i 0).val / 512, hN⟩ (0 : Fin 2) * 512 ≤ (i 0).val ∧ (i 0).val < win0_4.index ⟨(i 0).val / 512, hN⟩ (0 : Fin 2) * 512 + 512
    rw [e4.1]
    show (i 0).val / 512 * 512 ≤ (i 0).val ∧ (i 0).val < (i 0).val / 512 * 512 + 512
    omega
  | ⟨1, _⟩ =>
    show win0_4.index ⟨(i 0).val / 512, hN⟩ (1 : Fin 2) * 1024 ≤ (i 1).val ∧ (i 1).val < win0_4.index ⟨(i 0).val / 512, hN⟩ (1 : Fin 2) * 1024 + 1024
    rw [e4.2]; omega

/-- The value array after the launch. -/
theorem final4 (c : Dev nD) :
    (dat0 (F := Ideal) V c).arrAt 4 cfg0.N = Gp 2048 (by decide) (V c main_arg0) (V c main_v1) :=
  (dat0 V c).arrAt_eq_of_cover 4 _ (fun t _ => flushed4_eq V c t) cover4

end Blocks

/-! ## The three projections -/

/-- The query array after the launch, at (i, j): row i of the input against row j of weight matrix 1. -/
theorem proj_q (m : (ℓ : Loc nD τ sig) → Buf (Elt Ideal) ℓ) (ρ : Dev nD → PrngReg) (c : Dev nD) (i : Fin 8192) (j : Fin 1024) :
    (dat0 (F := Ideal) (V1 m ρ) c).arrAt 2 cfg0.N (ValueIdx.ix2 i j)
      = proj (m ((c : Thread nD τ).loc main_arg0)) (m ((c : Thread nD τ).loc main_arg1)) i j := by
  refine (congrFun (final2 (V1 m ρ) c) (ValueIdx.ix2 i j)).trans ?_
  show (Gp 0 (by decide) (V1 m ρ c main_arg0) (V1 m ρ c main_v1) (ix2 i j) : EReal)
    = proj (m ((c : Thread nD τ).loc main_arg0)) (m ((c : Thread nD τ).loc main_arg1)) i j
  unfold Gp proj
  refine Finset.sum_congr rfl fun k _ => ?_
  exact congrArg₂ (· * ·) (congrFun (V1_arg0 m ρ c) _) (stack_q m ρ c j k)

/-- The key array after the launch, at (i, j): row i of the input against row j of weight matrix 2. -/
theorem proj_k (m : (ℓ : Loc nD τ sig) → Buf (Elt Ideal) ℓ) (ρ : Dev nD → PrngReg) (c : Dev nD) (i : Fin 8192) (j : Fin 1024) :
    (dat0 (F := Ideal) (V1 m ρ) c).arrAt 3 cfg0.N (ValueIdx.ix2 i j)
      = proj (m ((c : Thread nD τ).loc main_arg0)) (m ((c : Thread nD τ).loc main_arg2)) i j := by
  refine (congrFun (final3 (V1 m ρ) c) (ValueIdx.ix2 i j)).trans ?_
  show (Gp 1024 (by decide) (V1 m ρ c main_arg0) (V1 m ρ c main_v1) (ix2 i j) : EReal)
    = proj (m ((c : Thread nD τ).loc main_arg0)) (m ((c : Thread nD τ).loc main_arg2)) i j
  unfold Gp proj
  refine Finset.sum_congr rfl fun k _ => ?_
  exact congrArg₂ (· * ·) (congrFun (V1_arg0 m ρ c) _) (stack_k m ρ c j k)

/-- The value array after the launch, at (i, j): row i of the input against row j of weight matrix 3. -/
theorem proj_v (m : (ℓ : Loc nD τ sig) → Buf (Elt Ideal) ℓ) (ρ : Dev nD → PrngReg) (c : Dev nD) (i : Fin 8192) (j : Fin 1024) :
    (dat0 (F := Ideal) (V1 m ρ) c).arrAt 4 cfg0.N (ValueIdx.ix2 i j)
      = proj (m ((c : Thread nD τ).loc main_arg0)) (m ((c : Thread nD τ).loc main_arg3)) i j := by
  refine (congrFun (final4 (V1 m ρ) c) (ValueIdx.ix2 i j)).trans ?_
  show (Gp 2048 (by decide) (V1 m ρ c main_arg0) (V1 m ρ c main_v1) (ix2 i j) : EReal)
    = proj (m ((c : Thread nD τ).loc main_arg0)) (m ((c : Thread nD τ).loc main_arg3)) i j
  unfold Gp proj
  refine Finset.sum_congr rfl fun k _ => ?_
  exact congrArg₂ (· * ·) (congrFun (V1_arg0 m ρ c) _) (stack_v m ρ c j k)

end Cert.KernelIdeal.Val0

end
-- ==== Proof.KI_Carry.lean ====
/-
  The attention body's arithmetic as a plain recursion, and that the body's run computes it.

  Chunk `k` of a key or value matrix is its rows [512·k, 512·k + 512). One trip takes the carried triple (running
  maximum, running denominator, running unnormalised output) to the next through the body's payloads at that chunk
  (`step`); `carried n` is the triple before trip `n`, from (−∞, 0, 0). What the body stores, whole, into its output
  block is the unnormalised output over the denominator after the last trip.
-/
import proofs.«111051_j6975026889338_2_alg».proof.Proof.KI_Region1
import Idealize.ShloMosaic.Lib.Pipeline.Value

set_option maxRecDepth 16384

noncomputable section

namespace Cert.KernelIdeal.Val1

open Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The loop makes sixteen trips. -/
theorem trips_eq : k1_t1_loop.trips = 16 := by decide

/-- The carried triple's type. -/
abbrev Carry (F : FTy → Type) [FloatOps F] : Type := FVec F S256x1 .f32 × FVec F S256x1 .f32 × FVec F S256x1024 .f32

/-- Rows [512·k, 512·k + 512) of a key or value matrix. -/
def chunk (X : Vec F S8192x1024 .bf16) (k : Fin k1_t1_loop.trips) : Vec F S512x1024 .bf16 :=
  View.ld X (Rect.unit (s := S8192x1024) (k1_off1 k) S512x1024.size (k1_off1_inb k))

/-- One trip: the carried triple after chunk `k`, from the triple before it. -/
def step (x0 : Vec F S256x1024 .bf16) (x1 x2 : Vec F S8192x1024 .bf16) (k : Fin k1_t1_loop.trips) (p : Carry F) : Carry F :=
  (k1_pay5 x0 p.1 (chunk x1 k), k1_pay8 x0 p.1 p.2.1 (chunk x1 k), k1_pay9 x0 p.1 p.2.2 (chunk x1 k) (chunk x2 k))

/-- The carried triple before trip `n`. -/
def carried (x0 : Vec F S256x1024 .bf16) (x1 x2 : Vec F S8192x1024 .bf16) : ℕ → Carry F
  | 0 => (k1_pay1, k1_pay2, k1_pay3)
  | n + 1 => if h : n < k1_t1_loop.trips then step x0 x1 x2 ⟨n, h⟩ (carried x0 x1 x2 n) else carried x0 x1 x2 n

theorem carried_succ (x0 : Vec F S256x1024 .bf16) (x1 x2 : Vec F S8192x1024 .bf16) (k : Fin k1_t1_loop.trips) :
    carried x0 x1 x2 (k.val + 1) = step x0 x1 x2 k (carried x0 x1 x2 k.val) := by
  rw [carried]; exact dif_pos k.isLt

section Run
variable (c : Dev nD) (i : grid1.Coords)
  (arg1 : Memref sig .tc .vmem S256x1024 .bf16) (harg1 : arg1.IsWhole) (arg2 : Memref sig .tc .vmem S8192x1024 .bf16) (harg2 : arg2.IsWhole)
  (arg3 : Memref sig .tc .vmem S8192x1024 .bf16) (harg3 : arg3.IsWhole) (arg4 : Memref sig .tc .vmem S256x1024 .f32) (harg4 : arg4.IsWhole)
  (x0 : Vec F S256x1024 .bf16) (x1 x2 : Vec F S8192x1024 .bf16)

/-- The body's first load reads the whole query block. -/
theorem load_q : View.readAt (Elt F) arg1.view (Rect.unit (s := S256x1024) ![0, 0] S256x1024.size inb_S256x1024_S256x1024_0_0).toLoadRect (harg1.unread x0) = x0 := by
  rw [View.readAt_eq_ld, harg1.read_unread, View.ld_unit_zero hz]

unseal trip_k1_t1 in
/-- One trip of the run is `step`: its two loads read the chunk's rows of the key and value matrices. -/
theorem trip_eq (k : Fin k1_t1_loop.trips) (acc : Carry F) :
    tripR_k1_t1 (F := F) Variants.none c none i arg1 harg1 arg2 harg2 arg3 harg3 arg4 harg4 x0 (harg2.unread x1) (harg3.unread x2) k acc
      = step x0 x1 x2 k acc := by
  unfold tripR_k1_t1 trip_k1_t1 step chunk
  dsimp only
  simp only [View.readAt_eq_ld, harg2.read_unread, harg3.read_unread]

/-- The run's carried value before trip `n` is `carried n`. -/
theorem st_eq (n : ℕ) (hn : n ≤ k1_t1_loop.trips) :
    st_k1_t1 (F := F) Variants.none c none i arg1 harg1 arg2 harg2 arg3 harg3 arg4 harg4 x0 (harg2.unread x1) (harg3.unread x2)
        (k1_pay1, k1_pay2, k1_pay3) n = carried x0 x1 x2 n := by
  induction n with
  | zero => rfl
  | succ n ih =>
    have h : n < k1_t1_loop.trips := hn
    have e1 := st_k1_t1_succ (F := F) Variants.none c none i arg1 harg1 arg2 harg2 arg3 harg3 arg4 harg4 x0 (harg2.unread x1) (harg3.unread x2)
      (k1_pay1, k1_pay2, k1_pay3) ⟨n, h⟩
    have e2 := carried_succ x0 x1 x2 ⟨n, h⟩
    dsimp only at e1 e2
    rw [e1, e2, trip_eq, ih (Nat.le_of_lt h)]

/-- What the body leaves in its output block: the unnormalised output over the denominator after the last trip. -/
theorem out1_3_eq :
    out1_3 c i arg1 harg1 arg2 harg2 arg3 harg3 arg4 harg4 x0 x1 x2
      = k1_pay10 (carried x0 x1 x2 k1_t1_loop.trips).2.1 (carried x0 x1 x2 k1_t1_loop.trips).2.2 := by
  unfold out1_3
  rw [View.read_writes_eq_canon _ _ _ (cover1 c i arg1 harg1 arg2 harg2 arg3 harg3 arg4 harg4 x0 x1 x2)]
  unfold kernelRun1
  dsimp only
  rw [View.canon_unit_zero hz, load_q]
  exact congrArg (fun p : Carry F => k1_pay10 p.2.1 p.2.2)
    (st_eq c i arg1 harg1 arg2 harg2 arg3 harg3 arg4 harg4 x0 x1 x2 k1_t1_loop.trips (Nat.le_refl _))

end Run

end Cert.KernelIdeal.Val1

end
-- ==== Proof.LibFiniteSums.lean ====
/-
  General laws for finite sums of REAL entries inside the extended reals.

  On the extended reals multiplication does not distribute over addition at the infinities, so a scale cannot be
  moved across a sum in general. For sums whose entries are all real it can: the sum of coerced reals is the coerced
  real sum, and there the ring laws apply. These are the laws behind folding a per-channel scale (a batch-norm
  scale, a gate) into the weights of a linear map, and behind packing two images side by side with block-diagonal
  weights: the off-diagonal blocks contribute 0 · (a real) = 0.
-/
import Mathlib.Data.EReal.Operations
import Mathlib.Algebra.BigOperators.Ring.Finset
import Mathlib.Algebra.BigOperators.Fin
import Mathlib.Algebra.BigOperators.Field
import Mathlib.Tactic.FinCases
import Mathlib.Tactic.Ring

noncomputable section

namespace Cert.LibFiniteSums

open scoped BigOperators

variable {ι κ : Type*}

/-- The sum of coerced reals is the coerced real sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, inside the extended reals, is a real. -/
theorem coe_sum_mul (s : Finset ι) (x w : ι → ℝ) :
    (∑ i ∈ s, ((x i : ℝ) : EReal) * ((w i : ℝ) : EReal)) = ((∑ i ∈ s, x i * w i : ℝ) : EReal) := by
  rw [← coe_sum]; exact Finset.sum_congr rfl fun i _ => (EReal.coe_mul _ _).symm

/-- A scale applied AFTER a contraction of reals is the same contraction with the scale folded into the weights:
    (Σ_i x_i w_i) · s = Σ_i x_i (w_i s). -/
theorem sum_mul_scale (s : Finset ι) (x w : ι → ℝ) (c : ℝ) :
    (∑ i ∈ s, ((x i : ℝ) : EReal) * ((w i : ℝ) : EReal)) * ((c : ℝ) : EReal)
      = ∑ i ∈ s, ((x i : ℝ) : EReal) * (((w i : ℝ) : EReal) * ((c : ℝ) : EReal)) := by
  rw [coe_sum_mul, ← EReal.coe_mul, Finset.sum_mul]
  rw [show (∑ i ∈ s, ((x i : ℝ) : EReal) * (((w i : ℝ) : EReal) * ((c : ℝ) : EReal)))
      = ∑ i ∈ s, ((x i * (w i * c) : ℝ) : EReal) from
    Finset.sum_congr rfl fun i _ => by rw [← EReal.coe_mul, ← EReal.coe_mul], coe_sum]
  congr 1
  exact Finset.sum_congr rfl fun i _ => by ring

/-- The same with a bias added on both sides (the folded batch-norm form). -/
theorem sum_mul_scale_add (s : Finset ι) (x w : ι → ℝ) (c b : ℝ) :
    (∑ i ∈ s, ((x i : ℝ) : EReal) * ((w i : ℝ) : EReal)) * ((c : ℝ) : EReal) + ((b : ℝ) : EReal)
      = (∑ i ∈ s, ((x i : ℝ) : EReal) * (((w i : ℝ) : EReal) * ((c : ℝ) : EReal))) + ((b : ℝ) : EReal) := by
  rw [sum_mul_scale]

/-- A gate folded into a contraction: Σ_i (w_i · c · g_i) · z_i = (Σ_i (z_i g_i) w_i) · c. -/
theorem sum_gate_fold (s : Finset ι) (z g w : ι → ℝ) (c : ℝ) :
    (∑ i ∈ s, (((w i : ℝ) : EReal) * ((c : ℝ) : EReal) * ((g i : ℝ) : EReal)) * ((z i : ℝ) : EReal))
      = (∑ i ∈ s, (((z i : ℝ) : EReal) * ((g i : ℝ) : EReal)) * ((w i : ℝ) : EReal)) * ((c : ℝ) : EReal) := by
  rw [show (∑ i ∈ s, (((w i : ℝ) : EReal) * ((c : ℝ) : EReal) * ((g i : ℝ) : EReal)) * ((z i : ℝ) : EReal))
      = ∑ i ∈ s, ((w i * c * g i * z i : ℝ) : EReal) from
    Finset.sum_congr rfl fun i _ => by rw [← EReal.coe_mul, ← EReal.coe_mul, ← EReal.coe_mul], coe_sum]
  rw [show (∑ i ∈ s, (((z i : ℝ) : EReal) * ((g i : ℝ) : EReal)) * ((w i : ℝ) : EReal))
      = ∑ i ∈ s, ((z i * g i * w i : ℝ) : EReal) from
    Finset.sum_congr rfl fun i _ => by rw [← EReal.coe_mul, ← EReal.coe_mul], coe_sum, ← EReal.coe_mul, Finset.sum_mul]
  congr 1
  exact Finset.sum_congr rfl fun i _ => by ring

/-- Two images packed side by side with block-diagonal weights: contracting the pair index against the Kronecker
    delta leaves the one image's contraction. -/
theorem sum_block_diag [Fintype ι] (p : Fin 2) (x : Fin 2 → ι → ℝ) (w : ι → ℝ) :
    (∑ q : Fin 2, ∑ i : ι, ((x q i : ℝ) : EReal) * (((if q = p then (1 : ℝ) else 0 : ℝ) : EReal) * ((w i : ℝ) : EReal)))
      = ∑ i : ι, ((x p i : ℝ) : EReal) * ((w i : ℝ) : EReal) := by
  rw [show (∑ q : Fin 2, ∑ i : ι, ((x q i : ℝ) : EReal) * (((if q = p then (1 : ℝ) else 0 : ℝ) : EReal) * ((w i : ℝ) : EReal)))
      = ∑ q : Fin 2, ((∑ i : ι, x q i * ((if q = p then (1 : ℝ) else 0) * w i) : ℝ) : EReal) from
    Finset.sum_congr rfl fun q _ => by
      rw [← coe_sum]; exact Finset.sum_congr rfl fun i _ => by rw [← EReal.coe_mul, ← EReal.coe_mul]]
  rw [coe_sum, coe_sum_mul]
  congr 1
  rw [Fin.sum_univ_two]
  fin_cases p <;> simp

/-- The mean over a rectangle taken at once is the mean of the row means (all entries real):
    (Σ_h Σ_w z) / (H·W) = (Σ_h (Σ_w z) / W) / H. -/
theorem mean_of_row_means {H W : ℕ} (z : Fin H → Fin W → ℝ) (hH : (H : ℝ) ≠ 0) (hW : (W : ℝ) ≠ 0) :
    (∑ h, ∑ w, z h w) / ((H : ℝ) * (W : ℝ)) = (∑ h, (∑ w, z h w) / (W : ℝ)) / (H : ℝ) := by
  rw [← Finset.sum_div, div_div, mul_comm]

end Cert.LibFiniteSums

end
-- ==== Proof.OnlineSoftmax.lean ====
/-
  The chunked softmax-weighted sum equals the one-pass softmax-weighted sum, for real scores and values.

  All scores and values are real. Walking the keys chunk by chunk, the carried triple before chunk c is, for a real
  number m (no matter which), the sums over the keys already seen of exp(s_j − m) and of exp(s_j − m) · v_j: when the
  running maximum moves from m to m', multiplying by exp(m − m') turns exp(s_j − m) into exp(s_j − m'). Before the
  first chunk the maximum is −∞ and both sums are empty; the first rescaling factor is then exp(−∞) = 0 and multiplies
  a zero. After the last chunk the quotient of the two sums does not depend on m, because a common factor
  exp(M − m) cancels: it is the one-pass quotient taken at the largest score M, and a quotient of a sum is the sum of
  the quotients. Sums and products of reals, and a division by a nonzero real, stay inside the reals, so every step
  is a step of real arithmetic carried through the coercion.
-/
import proofs.«111051_j6975026889338_2_alg».proof.Proof.AttnSpec
import proofs.«111051_j6975026889338_2_alg».proof.Proof.LibFiniteSums
import Idealize.ShloMosaic.PureOps.Ideal.Laws
import Mathlib.Analysis.SpecialFunctions.Exp

noncomputable section

namespace Cert.OnlineSoftmax

open Idealize.ShloMosaic Idealize.ShloMosaic.ValueIdx Cert.LibBlockSum Cert.LibFiniteSums Cert.AttnSpec
open scoped BigOperators

/-! ## The two starting words -/

theorem negInf_eq : negInf = (⊥ : EReal) := by
  simp [negInf, Ideal.ofBits, Ideal.ieee]

theorem zero_eq : zero = (0 : EReal) := Ideal.ofBits_zero_f32

/-! ## Real arithmetic: moving the reference point of the exponentials -/

section Real
variable {ι : Type*}

/-- exp(m − m') · Σ exp(g i − m) · w i = Σ exp(g i − m') · w i. -/
theorem rescale_w (F : Finset ι) (g w : ι → ℝ) (m m' : ℝ) :
    Real.exp (m - m') * ∑ i ∈ F, Real.exp (g i - m) * w i = ∑ i ∈ F, Real.exp (g i - m') * w i := by
  rw [Finset.mul_sum]
  refine Finset.sum_congr rfl fun i _ => ?_
  rw [← mul_assoc, ← Real.exp_add]
  congr 2
  ring

/-- exp(m − m') · Σ exp(g i − m) = Σ exp(g i − m'). -/
theorem rescale (F : Finset ι) (g : ι → ℝ) (m m' : ℝ) :
    Real.exp (m - m') * ∑ i ∈ F, Real.exp (g i - m) = ∑ i ∈ F, Real.exp (g i - m') := by
  rw [Finset.mul_sum]
  refine Finset.sum_congr rfl fun i _ => ?_
  rw [← Real.exp_add]
  congr 1
  ring

/-- The quotient of the weighted sum by the plain sum does not depend on the reference point, and is the sum of the
    normalised weights times the values. -/
theorem quotient_shift (F : Finset ι) (g w : ι → ℝ) (m M : ℝ) :
    (∑ i ∈ F, Real.exp (g i - m) * w i) / (∑ i ∈ F, Real.exp (g i - m))
      = ∑ i ∈ F, Real.exp (g i - M) * (1 / ∑ k ∈ F, Real.exp (g k - M)) * w i := by
  rw [← rescale_w F g w M m, ← rescale F g M m, mul_div_mul_left _ _ (Real.exp_ne_zero _), Finset.sum_div]
  refine Finset.sum_congr rfl fun i _ => ?_
  ring

end Real

/-! ## A fold of max over finitely many reals, at least one, is a real -/

theorem fold_max_real {n : ℕ} (hn : 0 < n) (f : Fin n → EReal) (hf : ∀ j, ∃ r : ℝ, f j = (r : EReal)) :
    ∃ r : ℝ, (Finset.univ : Finset (Fin n)).fold max (⊥ : EReal) f = (r : EReal) := by
  have htop : (Finset.univ : Finset (Fin n)).fold max (⊥ : EReal) f ≠ ⊤ := by
    refine ne_of_lt ((Finset.fold_max_lt (⊤ : EReal)).mpr ⟨bot_lt_top, fun j _ => ?_⟩)
    obtain ⟨r, hr⟩ := hf j
    rw [hr]; exact EReal.coe_lt_top r
  have hbot : (Finset.univ : Finset (Fin n)).fold max (⊥ : EReal) f ≠ ⊥ := by
    obtain ⟨r, hr⟩ := hf ⟨0, hn⟩
    have hle : f ⟨0, hn⟩ ≤ (Finset.univ : Finset (Fin n)).fold max (⊥ : EReal) f :=
      (Finset.le_fold_max _).mpr (Or.inr ⟨⟨0, hn⟩, Finset.mem_univ _, le_rfl⟩)
    rw [hr] at hle
    exact ne_of_gt (lt_of_lt_of_le (EReal.bot_lt_coe r) hle)
  exact ⟨_, (EReal.coe_toReal htop hbot).symm⟩

/-! ## The chunked walk -/

section Walk
variable {C B D : ℕ}

/-- The chunks before chunk `c`. -/
def seen (C c : ℕ) : Finset (Fin C) := Finset.univ.filter fun i => i.val < c

theorem seen_zero : seen C 0 = ∅ := by
  simp [seen]

theorem seen_succ {c : ℕ} (h : c < C) : seen C (c + 1) = insert ⟨c, h⟩ (seen C c) := by
  ext i
  simp only [seen, Finset.mem_filter, Finset.mem_univ, true_and, Finset.mem_insert, Fin.ext_iff]
  omega

theorem not_mem_seen {c : ℕ} (h : c < C) : (⟨c, h⟩ : Fin C) ∉ seen C c := by
  simp [seen]

theorem seen_all : seen C C = Finset.univ := Finset.filter_true_of_mem fun i _ => i.isLt

variable (s : Fin (C * B) → EReal) (v : Fin (C * B) → Fin D → EReal)

/-- The largest score of chunk `i`. -/
def blkMax (i : Fin C) : EReal := (Finset.univ : Finset (Fin B)).fold max negInf fun j => s (blockIdx i j)

theorem online_succ_m {c : ℕ} (h : c < C) :
    (online s v (c + 1)).1 = max (online s v c).1 (blkMax s ⟨c, h⟩) := by
  rw [online.eq_2]
  simp only [dif_pos h]
  rfl

theorem online_succ_l {c : ℕ} (h : c < C) :
    (online s v (c + 1)).2.1
      = Ideal.exp ((online s v c).1 - (online s v (c + 1)).1) * (online s v c).2.1
        + ∑ j : Fin B, Ideal.exp (s (blockIdx ⟨c, h⟩ j) - (online s v (c + 1)).1) := by
  rw [online.eq_2]
  simp only [dif_pos h]

theorem online_succ_acc {c : ℕ} (h : c < C) (d : Fin D) :
    (online s v (c + 1)).2.2 d
      = Ideal.exp ((online s v c).1 - (online s v (c + 1)).1) * (online s v c).2.2 d
        + ∑ j : Fin B, Ideal.exp (s (blockIdx ⟨c, h⟩ j) - (online s v (c + 1)).1) * v (blockIdx ⟨c, h⟩ j) d := by
  rw [online.eq_2]
  simp only [dif_pos h]

end Walk

/-! ## The carried triple, in real arithmetic -/

section Invariant
variable {C B D : ℕ}
variable (s : Fin (C * B) → EReal) (v : Fin (C * B) → Fin D → EReal)
variable (sr : Fin (C * B) → ℝ) (vr : Fin (C * B) → Fin D → ℝ)

/-- One chunk's numerators against a real reference point: a real sum. -/
theorem blk_den (hs : ∀ j, s j = (sr j : EReal)) (i : Fin C) (m : ℝ) :
    ∑ j : Fin B, Ideal.exp (s (blockIdx i j) - (m : EReal))
      = ((∑ j : Fin B, Real.exp (sr (blockIdx i j) - m) : ℝ) : EReal) := by
  rw [← coe_sum]
  refine Finset.sum_congr rfl fun j _ => ?_
  rw [hs, ← EReal.coe_sub, Ideal.exp_coe]

/-- One chunk's numerators times the values, against a real reference point: a real sum. -/
theorem blk_acc (hs : ∀ j, s j = (sr j : EReal)) (hv : ∀ j d, v j d = (vr j d : EReal)) (i : Fin C) (m : ℝ) (d : Fin D) :
    ∑ j : Fin B, Ideal.exp (s (blockIdx i j) - (m : EReal)) * v (blockIdx i j) d
      = ((∑ j : Fin B, Real.exp (sr (blockIdx i j) - m) * vr (blockIdx i j) d : ℝ) : EReal) := by
  rw [← coe_sum]
  refine Finset.sum_congr rfl fun j _ => ?_
  rw [hs, hv, ← EReal.coe_sub, Ideal.exp_coe, ← EReal.coe_mul]

/-- What the carried triple is before chunk `c`: either nothing has been seen (maximum −∞, both sums zero), or the
    maximum is a real `m` and the two sums are the real sums over the chunks seen, taken against `m`. -/
def Inv (c : ℕ) (p : EReal × EReal × (Fin D → EReal)) : Prop :=
  (p.1 = ⊥ ∧ seen C c = ∅ ∧ p.2.1 = 0 ∧ ∀ d, p.2.2 d = 0) ∨
  ∃ m : ℝ, p.1 = (m : EReal) ∧
    p.2.1 = ((∑ i ∈ seen C c, ∑ j : Fin B, Real.exp (sr (blockIdx i j) - m) : ℝ) : EReal) ∧
    ∀ d, p.2.2 d
      = ((∑ i ∈ seen C c, ∑ j : Fin B, Real.exp (sr (blockIdx i j) - m) * vr (blockIdx i j) d : ℝ) : EReal)

/-- Once the new maximum is a real `m'` and the rescaled old sums are the old real sums taken against `m'`, adding
    the new chunk's terms gives the sums over one more chunk. -/
theorem inv_of_scaled (hs : ∀ j, s j = (sr j : EReal)) (hv : ∀ j d, v j d = (vr j d : EReal))
    {c : ℕ} (h : c < C) (m' : ℝ) (hm : (online s v (c + 1)).1 = (m' : EReal))
    (hl : Ideal.exp ((online s v c).1 - (m' : EReal)) * (online s v c).2.1
      = ((∑ i ∈ seen C c, ∑ j : Fin B, Real.exp (sr (blockIdx i j) - m') : ℝ) : EReal))
    (hacc : ∀ d, Ideal.exp ((online s v c).1 - (m' : EReal)) * (online s v c).2.2 d
      = ((∑ i ∈ seen C c, ∑ j : Fin B, Real.exp (sr (blockIdx i j) - m') * vr (blockIdx i j) d : ℝ) : EReal)) :
    Inv sr vr (c + 1) (online s v (c + 1)) := by
  refine Or.inr ⟨m', hm, ?_, fun d => ?_⟩
  · rw [online_succ_l s v h, hm, hl, blk_den s sr hs _ m', ← EReal.coe_add, seen_succ h,
      Finset.sum_insert (not_mem_seen h), add_comm]
  · rw [online_succ_acc s v h d, hm, hacc d, blk_acc s v sr vr hs hv _ m' d, ← EReal.coe_add, seen_succ h,
      Finset.sum_insert (not_mem_seen h), add_comm]

theorem inv_step (hB : 0 < B) (hs : ∀ j, s j = (sr j : EReal)) (hv : ∀ j d, v j d = (vr j d : EReal))
    {c : ℕ} (h : c < C) (ih : Inv sr vr c (online s v c)) : Inv sr vr (c + 1) (online s v (c + 1)) := by
  obtain ⟨b, hb⟩ : ∃ b : ℝ, blkMax s ⟨c, h⟩ = (b : EReal) := by
    unfold blkMax
    rw [negInf_eq]
    exact fold_max_real hB _ fun j => ⟨_, hs _⟩
  rcases ih with ⟨hm, hseen, hl, hacc⟩ | ⟨m, hm, hl, hacc⟩
  · have hm' : (online s v (c + 1)).1 = (b : EReal) := by
      rw [online_succ_m s v h, hm, hb]
      exact max_eq_right bot_le
    refine inv_of_scaled s v sr vr hs hv h b hm' ?_ fun d => ?_
    · rw [hm, EReal.bot_sub, Ideal.exp_bot, zero_mul, hseen, Finset.sum_empty, EReal.coe_zero]
    · rw [hm, EReal.bot_sub, Ideal.exp_bot, zero_mul, hseen, Finset.sum_empty, EReal.coe_zero]
  · have hm' : (online s v (c + 1)).1 = ((max m b : ℝ) : EReal) := by
      rw [online_succ_m s v h, hm, hb]
      exact (EReal.coe_strictMono.monotone.map_max).symm
    refine inv_of_scaled s v sr vr hs hv h (max m b) hm' ?_ fun d => ?_
    · rw [hm, hl, ← EReal.coe_sub, Ideal.exp_coe, ← EReal.coe_mul]
      congr 1
      rw [Finset.mul_sum]
      exact Finset.sum_congr rfl fun i _ => rescale Finset.univ (fun j => sr (blockIdx i j)) m (max m b)
    · rw [hm, hacc d, ← EReal.coe_sub, Ideal.exp_coe, ← EReal.coe_mul]
      congr 1
      rw [Finset.mul_sum]
      exact Finset.sum_congr rfl fun i _ =>
        rescale_w Finset.univ (fun j => sr (blockIdx i j)) (fun j => vr (blockIdx i j) d) m (max m b)

theorem inv_all (hB : 0 < B) (hs : ∀ j, s j = (sr j : EReal)) (hv : ∀ j d, v j d = (vr j d : EReal)) :
    ∀ c : ℕ, c ≤ C → Inv sr vr c (online s v c)
  | 0, _ => Or.inl ⟨negInf_eq, seen_zero, zero_eq, fun _ => zero_eq⟩
  | c + 1, hc => inv_step s v sr vr hB hs hv (Nat.lt_of_succ_le hc) (inv_all hB hs hv c (Nat.le_of_succ_le hc))

end Invariant

/-! ## The two outputs agree -/

theorem onlineOut_eq_refOut {C B D : ℕ} (hC : 0 < C) (hB : 0 < B)
    (s : Fin (C * B) → EReal) (v : Fin (C * B) → Fin D → EReal)
    (hs : ∀ j, ∃ r : ℝ, s j = (r : EReal)) (hv : ∀ j d, ∃ r : ℝ, v j d = (r : EReal)) (d : Fin D) :
    Cert.AttnSpec.onlineOut s v d = Cert.AttnSpec.refOut s v d := by
  choose sr hsr using hs
  choose vr hvr using hv
  have hn : 0 < C * B := Nat.mul_pos hC hB
  have hpos : ∀ m : ℝ, 0 < ∑ k : Fin (C * B), Real.exp (sr k - m) := fun m =>
    Finset.sum_pos (fun k _ => Real.exp_pos _) ⟨⟨0, hn⟩, Finset.mem_univ _⟩
  -- the one-pass side, against the largest score M
  obtain ⟨M, hM⟩ : ∃ M : ℝ, refMax s = (M : EReal) := by
    unfold refMax
    rw [negInf_eq, max_eq_right bot_le]
    exact fold_max_real hn s fun j => ⟨_, hsr j⟩
  have hnum : ∀ j, refNum s j = ((Real.exp (sr j - M) : ℝ) : EReal) := fun j => by
    unfold refNum
    rw [hM, hsr, ← EReal.coe_sub, Ideal.exp_coe]
  have hden : refDen s = ((∑ k : Fin (C * B), Real.exp (sr k - M) : ℝ) : EReal) := by
    unfold refDen
    rw [zero_eq, zero_add, ← coe_sum]
    exact Finset.sum_congr rfl fun j _ => hnum j
  have href : refOut s v d
      = ((∑ j : Fin (C * B), Real.exp (sr j - M) * (1 / ∑ k : Fin (C * B), Real.exp (sr k - M)) * vr j d : ℝ) : EReal) := by
    unfold refOut
    rw [← coe_sum]
    refine Finset.sum_congr rfl fun j _ => ?_
    rw [hnum, hden, Ideal.div_coe (hpos M).ne', hvr, ← EReal.coe_mul, ← EReal.coe_mul]
  -- the chunked side, against whatever real maximum m the walk ends with
  rcases inv_all s v sr vr hB hsr hvr C le_rfl with ⟨_, hseen, _, _⟩ | ⟨m, _, hl, hacc⟩
  · exfalso
    have hmem : (⟨0, hC⟩ : Fin C) ∈ seen C C := by rw [seen_all]; exact Finset.mem_univ _
    rw [hseen] at hmem
    simp at hmem
  · rw [seen_all, ← sum_eq_sum_blocks C B fun k => Real.exp (sr k - m)] at hl
    have hacc' := hacc d
    rw [seen_all, ← sum_eq_sum_blocks C B fun k => Real.exp (sr k - m) * vr k d] at hacc'
    rw [href]
    unfold onlineOut
    rw [hacc', hl, Ideal.div_coe (hpos m).ne', ← EReal.coe_mul]
    congr 1
    rw [mul_one_div]
    exact quotient_shift Finset.univ sr (fun k => vr k d) m M

/-! ## Projections and scores of real inputs are real -/

theorem proj_real {N K M : ℕ} (X : (⟨2, ![N, K]⟩ : Shape).Idx → EReal) (W : (⟨2, ![M, K]⟩ : Shape).Idx → EReal)
    (hX : ∀ i, ∃ r : ℝ, X i = (r : EReal)) (hW : ∀ i, ∃ r : ℝ, W i = (r : EReal)) (i : Fin N) (j : Fin M) :
    ∃ r : ℝ, Cert.AttnSpec.proj X W i j = (r : EReal) := by
  choose xr hxr using hX
  choose wr hwr using hW
  refine ⟨∑ k : Fin K, xr (ix2 i k) * wr (ix2 j k), ?_⟩
  unfold proj
  rw [← coe_sum_mul]
  exact Finset.sum_congr rfl fun k _ => by rw [hxr, hwr]

theorem score_real {N K M : ℕ} (X : (⟨2, ![N, K]⟩ : Shape).Idx → EReal) (Wq Wk : (⟨2, ![M, K]⟩ : Shape).Idx → EReal)
    (hX : ∀ i, ∃ r : ℝ, X i = (r : EReal)) (hq : ∀ i, ∃ r : ℝ, Wq i = (r : EReal))
    (hk : ∀ i, ∃ r : ℝ, Wk i = (r : EReal)) (i j : Fin N) :
    ∃ r : ℝ, Cert.AttnSpec.score X Wq Wk i j = (r : EReal) := by
  choose qr hqr using fun e => proj_real X Wq hX hq i e
  choose kr hkr using fun e => proj_real X Wk hX hk j e
  refine ⟨∑ e : Fin M, qr e * kr e, ?_⟩
  unfold score
  rw [← coe_sum_mul]
  exact Finset.sum_congr rfl fun e _ => by rw [hqr, hkr]

end Cert.OnlineSoftmax

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.KI_Trip.lean ====
/-
  The attention body's pure values, read at an index on the extended reals.

  One pass of the body takes a block of 256 query rows (1024 wide), the carried column of running maxima, the carried
  column of running denominators and the carried block of unnormalised outputs, and one chunk of 512 key rows and 512
  value rows. Read at row r (and value coordinate d) it computes: the chunk's scores of the row, each the dot product
  of the query row with a key row; the new running maximum, the larger of the old one and the largest score of the
  chunk (a fold of max from the word of −∞); the rescaling factor exp(old maximum − new maximum); the new denominator,
  the factor times the old denominator plus the sum of exp(score − new maximum) over the chunk; and the new output,
  the factor times the old output plus the sum over the chunk of exp(score − new maximum) times the value row's
  entry. After the last pass the output is divided by the denominator of its row. A change of float format and a cast
  of an array to its own shape change nothing on the extended reals.
-/
import proofs.«111051_j6975026889338_2_alg».proof.Proof.Gen.KernelIdeal.Skeleton
import proofs.«111051_j6975026889338_2_alg».proof.Proof.AttnSpec
import proofs.«111051_j6975026889338_2_alg».proof.Proof.LibMatmul2d
import proofs.«111051_j6975026889338_2_alg».proof.Proof.LibRowwise

noncomputable section

namespace Cert.KernelIdeal.Trip

open Cert.KernelIdeal Cert.KernelIdeal.Gen Cert.AttnSpec Idealize.ShloMosaic Idealize.ShloMosaic.ValueIdx
open scoped BigOperators

/-- The score of query row `r` against key row `j` of the chunk. -/
abbrev sc (v0 : FVec Ideal S256x1024 .bf16) (v13 : FVec Ideal S512x1024 .bf16) (r : Fin 256) (j : Fin 512) : EReal :=
  ∑ e : Fin 1024, v0 (ix2 r e) * v13 (ix2 j e)

/-- The new running maximum of row `r`: the old one against the largest score of the chunk. -/
abbrev mx (v0 : FVec Ideal S256x1024 .bf16) (a6 : FVec Ideal S256x1 .f32) (v13 : FVec Ideal S512x1024 .bf16) (r : Fin 256) : EReal :=
  max (a6 (ix2 r (0 : Fin 1))) ((Finset.univ : Finset (Fin 512)).fold max negInf (sc v0 v13 r))

variable (v0 : FVec Ideal S256x1024 .bf16) (a6 a7 : FVec Ideal S256x1 .f32) (a8 : FVec Ideal S256x1024 .f32)
  (v13 v16 : FVec Ideal S512x1024 .bf16) (r : Fin 256) (d : Fin 1024)

/-- The score block at (r, j): the dot product of query row r with key row j. -/
theorem pay4_at (j : Fin 512) : k1_pay4 (F := Ideal) v0 v13 (ix2 r j) = sc v0 v13 r j := by
  have h1 : shapeCast S256x1024 v0 shapeCasts_S256x1024_S256x1024 = v0 := shapeCast_self _ _
  have h2 : shapeCast S512x1024 v13 shapeCasts_S512x1024_S512x1024 = v13 := shapeCast_self _ _
  show matmul dot_S256x1024_S512x1024_S256x512_1_1_0_0_n_n none (shapeCast S256x1024 v0 shapeCasts_S256x1024_S256x1024)
    (shapeCast S512x1024 v13 shapeCasts_S512x1024_S512x1024) (constant S256x512 .f32 0x00000000#32) (ix2 r j) = _
  rw [h1, h2]
  exact Cert.LibMatmul2d.matmul_transposedRhs_apply (M := 256) (K := 1024) (N := 512) v0 v13 r j

/-- The new running maximum at row r. -/
theorem pay5_at : k1_pay5 v0 a6 v13 (ix2 r (0 : Fin 1)) = mx v0 a6 v13 r := by
  refine (maximumf_apply a6 _ (ix2 r (0 : Fin 1))).trans ?_
  refine congrArg (max (a6 (ix2 r (0 : Fin 1)))) ?_
  refine (Cert.LibRowwise.shapeCast_a_a1_apply _ shapeCasts_S256_S256x1 r (0 : Fin 1)).trans ?_
  refine (Cert.LibRowwise.rowMax_apply (k1_pay4 v0 v13) 0xFF800000#32 reduces_S256x512_S256 _ _ r).trans ?_
  exact congrArg (fun f => (Finset.univ : Finset (Fin 512)).fold max negInf f) (funext fun j => pay4_at v0 v13 r j)

/-- The rescaling factor at row r. -/
theorem pay6_at : k1_pay6 v0 a6 v13 (ix2 r (0 : Fin 1)) = Ideal.exp (a6 (ix2 r 0) - mx v0 a6 v13 r) := by
  show Ideal.exp (a6 (ix2 r 0) - k1_pay5 v0 a6 v13 (ix2 r (0 : Fin 1))) = _
  rw [pay5_at]

/-- The numerator of key j at row r. -/
theorem pay7_at (j : Fin 512) : k1_pay7 v0 a6 v13 (ix2 r j) = Ideal.exp (sc v0 v13 r j - mx v0 a6 v13 r) := by
  show Ideal.exp (k1_pay4 (F := Ideal) v0 v13 (ix2 r j)
    - broadcastTo S256x512 (k1_pay5 v0 a6 v13) broadcasts_S256x1_S256x512 (ix2 r j)) = _
  rw [pay4_at, Cert.LibRowwise.broadcastTo_a1_ab_apply _ broadcasts_S256x1_S256x512 r j, pay5_at]

/-- The new running denominator at row r. -/
theorem pay8_at : k1_pay8 v0 a6 a7 v13 (ix2 r (0 : Fin 1))
    = Ideal.exp (a6 (ix2 r 0) - mx v0 a6 v13 r) * a7 (ix2 r 0)
      + ∑ j : Fin 512, Ideal.exp (sc v0 v13 r j - mx v0 a6 v13 r) := by
  refine (addf_apply _ _ (ix2 r (0 : Fin 1))).trans ?_
  refine congrArg₂ (· + ·) ?_ ?_
  · exact (mulf_apply _ a7 (ix2 r (0 : Fin 1))).trans (congrArg (· * a7 (ix2 r 0)) (pay6_at v0 a6 v13 r))
  · refine (Cert.LibRowwise.shapeCast_a_a1_apply _ shapeCasts_S256_S256x1 r (0 : Fin 1)).trans ?_
    refine (Cert.LibRowwise.rowSum_apply (k1_pay7 v0 a6 v13) 0x00000000#32 reduces_S256x512_S256 _ _ r).trans ?_
    exact Finset.sum_congr rfl fun j _ => pay7_at v0 a6 v13 r j

/-- The new unnormalised output at (r, d). -/
theorem pay9_at : k1_pay9 v0 a6 a8 v13 v16 (ix2 r d)
    = Ideal.exp (a6 (ix2 r 0) - mx v0 a6 v13 r) * a8 (ix2 r d)
      + ∑ j : Fin 512, Ideal.exp (sc v0 v13 r j - mx v0 a6 v13 r) * v16 (ix2 j d) := by
  refine (addf_apply _ _ (ix2 r d)).trans ?_
  refine congrArg₂ (· + ·) ?_ ?_
  · refine (mulf_apply _ a8 (ix2 r d)).trans (congrArg (· * a8 (ix2 r d)) ?_)
    exact (Cert.LibRowwise.broadcastTo_a1_ab_apply _ broadcasts_S256x1_S256x1024 r d).trans (pay6_at v0 a6 v13 r)
  · have h2 : shapeCast S512x1024 v16 shapeCasts_S512x1024_S512x1024 = v16 := shapeCast_self _ _
    show matmul dot_S256x512_S512x1024_S256x1024_1_0_0_1_n_n none (truncf .bf16 (k1_pay7 v0 a6 v13) bitsLt_bf16_f32)
      (shapeCast S512x1024 v16 shapeCasts_S512x1024_S512x1024) (constant S256x1024 .f32 0x00000000#32) (ix2 r d) = _
    rw [h2]
    refine (Cert.LibMatmul2d.matmul_plain_apply (M := 256) (K := 512) (N := 1024)
      (truncf .bf16 (k1_pay7 v0 a6 v13) bitsLt_bf16_f32) v16 r d).trans ?_
    exact Finset.sum_congr rfl fun j _ => congrArg (· * v16 (ix2 j d)) (pay7_at v0 a6 v13 r j)

/-- The final quotient at (r, d): the output over its row's denominator. -/
theorem pay10_at (l : FVec Ideal S256x1 .f32) (acc : FVec Ideal S256x1024 .f32) :
    k1_pay10 l acc (ix2 r d) = Ideal.div (acc (ix2 r d)) (l (ix2 r (0 : Fin 1))) := by
  refine (divf_apply acc _ (ix2 r d)).trans ?_
  exact congrArg (Ideal.div (acc (ix2 r d))) (Cert.LibRowwise.broadcastTo_a1_ab_apply l broadcasts_S256x1_S256x1024 r d)

/-- The starting column of maxima: the word of −∞ everywhere. -/
theorem pay1_at : k1_pay1 (F := Ideal) (ix2 r (0 : Fin 1)) = negInf := rfl

/-- The starting column of denominators: the zero word everywhere. -/
theorem pay2_at : k1_pay2 (F := Ideal) (ix2 r (0 : Fin 1)) = zero := rfl

/-- The starting block of outputs: the zero word everywhere. -/
theorem pay3_at : k1_pay3 (F := Ideal) (ix2 r d) = zero := rfl

end Cert.KernelIdeal.Trip

end
-- ==== Proof.KI_Value1.lean ====
/-
  The attention launch's output array, index by index, at exact arithmetic.

  Row `r` of a query block has a score against every key row — the dot product of the two rows — and the body walks the
  keys in sixteen chunks of 512; key `j` of chunk `k` is key row 512·k + j. By induction over the trips the carried
  triple of that row IS the chunk-by-chunk walk of the specification (`online`) over those scores and the value rows, so the
  block the body stores is the walk's output (`onlineOut`). A point's query block is rows [256·t, 256·t + 256) of the query
  array and its key and value blocks are the whole arrays, so the blocks the thirty-two points write back are the
  restrictions of ONE function of the three arrays (`flash`), and they cover the output array.
-/
import proofs.«111051_j6975026889338_2_alg».proof.Proof.KI_Carry
import proofs.«111051_j6975026889338_2_alg».proof.Proof.OnlineSoftmax
import proofs.«111051_j6975026889338_2_alg».proof.Proof.AttnSpec
import proofs.«111051_j6975026889338_2_alg».proof.Proof.LibBlockSum
import proofs.«111051_j6975026889338_2_alg».proof.Proof.KI_Trip
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Frm Cert.KernelIdeal.Trip Cert.AttnSpec Cert.LibBlockSum Cert.OnlineSoftmax
open Idealize.ShloMosaic Idealize.ShloMosaic.TcCoe Idealize.ShloMosaic.ValueIdx Idealize.SL.Sem
open Idealize.ShloMosaic.Pipeline (Dat)
open scoped BigOperators

/-! ## A row's scores and the value rows -/

/-- Key row 512·n + j: key `j` of chunk `n`. -/
def key (n : ℕ) (h : n < 16) (j : Fin 512) : Fin 8192 := ⟨512 * n + j.val, by have := j.isLt; omega⟩

theorem blockIdx_key (n : ℕ) (h : n < 16) (j : Fin 512) : (blockIdx (n := 16) (B := 512) ⟨n, h⟩ j : Fin 8192) = key n h j :=
  Fin.ext (by rw [blockIdx_val]; show j.val + 512 * n = 512 * n + j.val; omega)

/-- The scores of row `r` of a query block against every key row. -/
def sRow (x0 : FVec Ideal S256x1024 .bf16) (x1 : FVec Ideal S8192x1024 .bf16) (r : Fin 256) : Fin (16 * 512) → EReal :=
  fun j => ∑ e : Fin 1024, x0 (ix2 r e) * x1 (ix2 (j : Fin 8192) e)

/-- The value rows. -/
def vRow (x2 : FVec Ideal S8192x1024 .bf16) : Fin (16 * 512) → Fin 1024 → EReal := fun j d => x2 (ix2 (j : Fin 8192) d)

/-- A chunk's entry is the matrix's entry at the chunk's row. -/
theorem chunk_at (X : FVec Ideal S8192x1024 .bf16) (n : ℕ) (h : n < 16) (ht : n < k1_t1_loop.trips) (j : Fin 512) (e : Fin 1024) :
    chunk (F := Ideal) X ⟨n, ht⟩ (ix2 j e) = X (ix2 (key n h j) e) := by
  show X ((Rect.unit (s := S8192x1024) (k1_off1 ⟨n, ht⟩) S512x1024.size (k1_off1_inb ⟨n, ht⟩)).emb (ix2 j e)) = _
  refine congrArg X ?_
  funext a; apply Fin.ext
  match a with
  | ⟨0, _⟩ =>
    show (k1_off1 ⟨n, ht⟩) 0 + 1 * j.val = 512 * n + j.val
    rw [k1_off1_eq]; show 512 * n + 1 * j.val = 512 * n + j.val; omega
  | ⟨1, _⟩ =>
    show (k1_off1 ⟨n, ht⟩) 1 + 1 * e.val = e.val
    rw [k1_off1_eq]; show 0 + 1 * e.val = e.val; omega

/-! ## The carried triple of a row is the specification's walk -/

theorem carried_at (x0 : FVec Ideal S256x1024 .bf16) (x1 x2 : FVec Ideal S8192x1024 .bf16) (r : Fin 256) (n : ℕ) (hn : n ≤ 16) :
    (carried (F := Ideal) x0 x1 x2 n).1 (ix2 r (0 : Fin 1)) = (online (C := 16) (B := 512) (sRow x0 x1 r) (vRow x2) n).1
    ∧ (carried (F := Ideal) x0 x1 x2 n).2.1 (ix2 r (0 : Fin 1)) = (online (C := 16) (B := 512) (sRow x0 x1 r) (vRow x2) n).2.1
    ∧ ∀ d : Fin 1024, (carried (F := Ideal) x0 x1 x2 n).2.2 (ix2 r d) = (online (C := 16) (B := 512) (sRow x0 x1 r) (vRow x2) n).2.2 d := by
  induction n with
  | zero => exact ⟨pay1_at r, pay2_at r, fun d => pay3_at r d⟩
  | succ n ih =>
    have h : n < 16 := hn
    have ht : n < k1_t1_loop.trips := by rw [trips_eq]; exact h
    obtain ⟨ih1, ih2, ih3⟩ := ih (Nat.le_of_lt h)
    have e := carried_succ (F := Ideal) x0 x1 x2 ⟨n, ht⟩
    dsimp only at e
    have hsc : ∀ j : Fin 512, sc x0 (chunk (F := Ideal) x1 ⟨n, ht⟩) r j = sRow x0 x1 r (blockIdx ⟨n, h⟩ j) := fun j =>
      Finset.sum_congr rfl fun e' _ => by rw [chunk_at x1 n h ht j e', blockIdx_key n h j]
    have hmx : mx x0 (carried (F := Ideal) x0 x1 x2 n).1 (chunk (F := Ideal) x1 ⟨n, ht⟩) r
        = (online (C := 16) (B := 512) (sRow x0 x1 r) (vRow x2) (n + 1)).1 := by
      rw [online_succ_m (sRow x0 x1 r) (vRow x2) h]
      unfold mx blkMax
      rw [ih1]
      exact congrArg (fun f => max _ ((Finset.univ : Finset (Fin 512)).fold max negInf f)) (funext hsc)
    rw [e]
    refine ⟨?_, ?_, fun d => ?_⟩
    · exact (pay5_at x0 _ _ r).trans hmx
    · refine (pay8_at x0 _ _ _ r).trans ?_
      rw [hmx, ih1, ih2, online_succ_l (sRow x0 x1 r) (vRow x2) h]
      exact congrArg (_ + ·) (Finset.sum_congr rfl fun j _ => by rw [hsc j])
    · refine (pay9_at x0 _ _ _ _ r d).trans ?_
      rw [hmx, ih1, ih3 d, online_succ_acc (sRow x0 x1 r) (vRow x2) h d]
      refine congrArg (_ + ·) (Finset.sum_congr rfl fun j _ => ?_)
      rw [hsc j, chunk_at x2 n h ht j d, ← blockIdx_key n h j]
      rfl

/-! ## One function of the three arrays -/

/-- The chunk-by-chunk attention output at (i, d), from the query, key and value arrays. -/
def flashAt (Qa Ka Va : FVec Ideal S8192x1024 .bf16) (i : Fin 8192) (d : Fin 1024) : EReal :=
  onlineOut (C := 16) (B := 512) (fun j => ∑ e : Fin 1024, Qa (ix2 i e) * Ka (ix2 (j : Fin 8192) e)) (fun j e => Va (ix2 (j : Fin 8192) e)) d

/-- The same, as an array. -/
def flash (Qa Ka Va : FVec Ideal S8192x1024 .bf16) : S8192x1024.Idx → EReal :=
  fun y => flashAt Qa Ka Va ⟨(y 0).val, (y 0).isLt⟩ ⟨(y 1).val, (y 1).isLt⟩

/-- The block the body stores, at row `r`: the attention output of the query row it was handed. -/
theorem block_value (x0 : FVec Ideal S256x1024 .bf16) (x1 x2 : FVec Ideal S8192x1024 .bf16) (Qa : FVec Ideal S8192x1024 .bf16)
    (i : Fin 8192) (r : Fin 256) (hq : ∀ e : Fin 1024, x0 (ix2 r e) = Qa (ix2 i e)) (d : Fin 1024) :
    k1_pay10 (carried (F := Ideal) x0 x1 x2 k1_t1_loop.trips).2.1 (carried (F := Ideal) x0 x1 x2 k1_t1_loop.trips).2.2 (ix2 r d)
      = flashAt Qa x1 x2 i d := by
  refine (pay10_at r d _ _).trans ?_
  obtain ⟨-, h2, h3⟩ := carried_at x0 x1 x2 r 16 (Nat.le_refl _)
  rw [trips_eq, h2, h3 d]
  unfold flashAt onlineOut
  have hs : sRow x0 x1 r = fun j => ∑ e : Fin 1024, Qa (ix2 i e) * x1 (ix2 (j : Fin 8192) e) :=
    funext fun j => Finset.sum_congr rfl fun e _ => by rw [hq e]
  rw [hs]
  rfl

/-! ## The walk over the projected arrays is the one-pass form, for real inputs -/

/-- When the three arrays are the projections of an input against three weight matrices, all of real entries, the
    chunk-by-chunk output is the one-pass attention output: every score and value is then a real number, and on real
    numbers the walk and the one-pass form agree. -/
theorem flashAt_eq_attnAt (Qa Ka Va : FVec Ideal S8192x1024 .bf16)
    (X : (⟨2, ![8192, 1024]⟩ : Shape).Idx → EReal) (Wq Wk Wv : (⟨2, ![1024, 1024]⟩ : Shape).Idx → EReal)
    (hQ : ∀ (a : Fin 8192) (e : Fin 1024), Qa (ix2 a e) = proj X Wq a e)
    (hK : ∀ (a : Fin 8192) (e : Fin 1024), Ka (ix2 a e) = proj X Wk a e)
    (hV : ∀ (a : Fin 8192) (e : Fin 1024), Va (ix2 a e) = proj X Wv a e)
    (hX : ∀ y, ∃ r : ℝ, X y = (r : EReal)) (hq : ∀ y, ∃ r : ℝ, Wq y = (r : EReal))
    (hk : ∀ y, ∃ r : ℝ, Wk y = (r : EReal)) (hv : ∀ y, ∃ r : ℝ, Wv y = (r : EReal))
    (i : Fin 8192) (d : Fin 1024) :
    flashAt Qa Ka Va i d = attnAt X Wq Wk Wv i d := by
  unfold flashAt
  have hs : (fun j : Fin (16 * 512) => ∑ e : Fin 1024, Qa (ix2 i e) * Ka (ix2 (j : Fin 8192) e))
      = fun j => score X Wq Wk i (j : Fin 8192) :=
    funext fun j => Finset.sum_congr rfl fun e _ => by rw [hQ, hK]
  have hvv : (fun (j : Fin (16 * 512)) (e : Fin 1024) => Va (ix2 (j : Fin 8192) e))
      = fun j e => proj X Wv (j : Fin 8192) e :=
    funext fun j => funext fun e => hV j e
  rw [hs, hvv]
  exact onlineOut_eq_refOut (C := 16) (B := 512) (by norm_num) (by norm_num) _ _
    (fun j => score_real X Wq Wk hX hq hk i j) (fun j e => proj_real X Wv hX hv j e) d

/-! ## From blocks to the array -/

section Array
variable (V : (c : Dev nD) → (b : Ref sig .tc) → Buf (Elt Ideal) ((c : Thread nD τ).loc b))

/-- The printed index maps, decided over the grid: the query and output blocks move with the point, the key and value
    blocks stay at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `flash` of the three arrays as the launch finds them. -/
theorem flushed3_eq (c : Dev nD) (t : Fin cfg1.N) :
    (dat1 (F := Ideal) V c).flushed 3 t
      = ((cfg1.win 3).blk t).view.read (Elt Ideal) (flash (V c main_v2_0) (V c main_v2_1) (V c main_v2_2)) := by
  show (cfg1.win 3).cut (grid1.coords t) ((dat1 (F := Ideal) V c).after 3 t) = _
  rw [after1_3, out1_3_eq]
  obtain ⟨e0, e1, e2, e3, e4, e5, e6, e7⟩ := idx1 t
  have hN : t.val < 32 := lt_of_lt_of_eq t.isLt (show cfg1.N = 32 from N_1)
  have hK : (iblk1 V c 1 t : S8192x1024.Idx → EReal) = V c main_v2_1 := by
    funext y
    show V c main_v2_1 (((cfg1.win 1).blk t).view.emb y) = V c main_v2_1 y
    refine congrArg (V c main_v2_1) ?_
    funext a; apply Fin.ext
    match a with
    | ⟨0, _⟩ => show win1_1.index t (0 : Fin 2) * 8192 + 1 * (y 0).val = (y 0).val; omega
    | ⟨1, _⟩ => show win1_1.index t (1 : Fin 2) * 1024 + 1 * (y 1).val = (y 1).val; omega
  have hV : (iblk1 V c 2 t : S8192x1024.Idx → EReal) = V c main_v2_2 := by
    funext y
    show V c main_v2_2 (((cfg1.win 2).blk t).view.emb y) = V c main_v2_2 y
    refine congrArg (V c main_v2_2) ?_
    funext a; apply Fin.ext
    match a with
    | ⟨0, _⟩ => show win1_2.index t (0 : Fin 2) * 8192 + 1 * (y 0).val = (y 0).val; omega
    | ⟨1, _⟩ => show win1_2.index t (1 : Fin 2) * 1024 + 1 * (y 1).val = (y 1).val; omega
  rw [hK, hV]
  funext y
  obtain ⟨r, d, rfl⟩ : ∃ (r : Fin 256) (d : Fin 1024), y = ix2 r d := ⟨y 0, y 1, eq_ix2 y⟩
  have hi : 256 * t.val + r.val < 8192 := by have := r.isLt; omega
  show k1_pay10 (F := Ideal) _ _ (ix2 r d) = flash (V c main_v2_0) (V c main_v2_1) (V c main_v2_2) (((cfg1.win 3).blk t).view.emb (ix2 r d))
  refine (block_value (iblk1 V c 0 t) (V c main_v2_1) (V c main_v2_2) (V c main_v2_0) ⟨256 * t.val + r.val, hi⟩ r (fun e => ?_) d).trans ?_
  · show V c main_v2_0 (((cfg1.win 0).blk t).view.emb (ix2 r e)) = V c main_v2_0 (ix2 ⟨256 * t.val + r.val, hi⟩ e)
    refine congrArg (V c main_v2_0) ?_
    funext a; apply Fin.ext
    match a with
    | ⟨0, _⟩ => show win1_0.index t (0 : Fin 2) * 256 + 1 * r.val = 256 * t.val + r.val; omega
    | ⟨1, _⟩ => show win1_0.index t (1 : Fin 2) * 1024 + 1 * e.val = e.val; omega
  · unfold flash
    have h0 : ((((cfg1.win 3).blk t).view.emb (ix2 r d)) 0).val = 256 * t.val + r.val := by
      show win1_3.index t (0 : Fin 2) * 256 + 1 * r.val = 256 * t.val + r.val; omega
    have h1 : ((((cfg1.win 3).blk t).view.emb (ix2 r d)) 1).val = d.val := by
      show win1_3.index t (1 : Fin 2) * 1024 + 1 * d.val = d.val; omega
    exact congrArg₂ (flashAt (V c main_v2_0) (V c main_v2_1) (V c main_v2_2)) (Fin.ext h0.symm) (Fin.ext h1.symm)

/-- An index of the output array is in point `t`'s block iff each coordinate is in the block's range. -/
theorem mem_blk3 (t : Fin cfg1.N) (i : S8192x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v3).slice (win1_3.rect t)).set ↔ _
  rw [View.set_slice_whole, Rect.mem_set_unit]
  exact Iff.rfl

/-- Every index of the output array lies in the block of the point its row falls in: row i belongs to point i / 256. -/
theorem cover3 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 32 := N_1
  refine ⟨⟨(i 0).val / 256, by rw [hN]; omega⟩, flush1_3 _, ?_⟩
  rw [mem_blk3]
  obtain ⟨-, -, -, -, -, -, e6, e7⟩ := idx1 ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e6]; show (i 0).val / 256 * 256 ≤ (i 0).val ∧ (i 0).val < (i 0).val / 256 * 256 + 256; omega
  | ⟨1, _⟩ =>
    show win1_3.index _ (1 : Fin 2) * 1024 ≤ (i 1).val ∧ (i 1).val < win1_3.index _ (1 : Fin 2) * 1024 + 1024
    rw [e7]; omega

/-- The output array after the launch: `flash` of the query, key and value arrays as the launch finds them. -/
theorem final3 (c : Dev nD) :
    (dat1 (F := Ideal) V c).arrAt 3 cfg1.N = flash (V c main_v2_0) (V c main_v2_1) (V c main_v2_2) :=
  (dat1 (F := Ideal) V c).arrAt_eq_of_cover 3 _ (fun t _ => flushed3_eq V c t) cover3

end Array

end Cert.KernelIdeal.Val1

end
-- ==== Proof.RefRead.lean ====
/-
  The reference's result, read index by index: it is the one-pass attention output of `AttnSpec`.

  The reference projects the input three times (queries, keys, values: each a transpose of a weight matrix and a
  contraction over the model axis), contracts queries against keys for the scores, takes each row's maximum as a
  fold from the word of −∞ and once more against a broadcast −∞, subtracts it, exponentiates, sums each row from the
  zero word, divides, and contracts the weights against the values. Each stage below is read at an index written by
  coordinates; the composed index maps of the layout stages are identified with coordinate pairs once, axis by axis.
-/
import proofs.«111051_j6975026889338_2_alg».proof.Defs
import proofs.«111051_j6975026889338_2_alg».proof.Proof.Gen.ReferenceIdeal.Read
import proofs.«111051_j6975026889338_2_alg».proof.Proof.AttnSpec
import proofs.«111051_j6975026889338_2_alg».proof.Proof.LibRowwise

noncomputable section

namespace Cert.RefRead

open Idealize.ShloMosaic Idealize.ShloMosaic.ValueIdx Idealize.SL.Sem
open Cert.ReferenceIdeal Cert.ReferenceIdeal.Gen Cert.AttnSpec
open scoped BigOperators

/-! ## The composed index maps, at coordinates -/

/-- The left operand of a projection at output (i, e), summand k: the input at (i, k). -/
theorem lidx_v1 (i : Fin 8192) (e k : Fin 1024) : Read.lidx_main_v1 (ix2 i e) k = ix2 i k :=
  funext fun a => Fin.ext (by match a with | ⟨0, _⟩ => rfl | ⟨1, _⟩ => rfl)
theorem lidx_v3 (i : Fin 8192) (e k : Fin 1024) : Read.lidx_main_v3 (ix2 i e) k = ix2 i k :=
  funext fun a => Fin.ext (by match a with | ⟨0, _⟩ => rfl | ⟨1, _⟩ => rfl)
theorem lidx_v5 (i : Fin 8192) (e k : Fin 1024) : Read.lidx_main_v5 (ix2 i e) k = ix2 i k :=
  funext fun a => Fin.ext (by match a with | ⟨0, _⟩ => rfl | ⟨1, _⟩ => rfl)

/-- The right operand of a projection at output (i, e), summand k, through the transpose: the weight at (e, k). -/
theorem ridx_v1 (i : Fin 8192) (e k : Fin 1024) : Read.idx_main_v0 (Read.ridx_main_v1 (ix2 i e) k) = ix2 e k :=
  funext fun a => Fin.ext (by match a with | ⟨0, _⟩ => rfl | ⟨1, _⟩ => rfl)
theorem ridx_v3 (i : Fin 8192) (e k : Fin 1024) : Read.idx_main_v2 (Read.ridx_main_v3 (ix2 i e) k) = ix2 e k :=
  funext fun a => Fin.ext (by match a with | ⟨0, _⟩ => rfl | ⟨1, _⟩ => rfl)
theorem ridx_v5 (i : Fin 8192) (e k : Fin 1024) : Read.idx_main_v4 (Read.ridx_main_v5 (ix2 i e) k) = ix2 e k :=
  funext fun a => Fin.ext (by match a with | ⟨0, _⟩ => rfl | ⟨1, _⟩ => rfl)

/-- The score at (i, j), summand e: the query row i at e … -/
theorem lidx_v7 (i j : Fin 8192) (e : Fin 1024) : Read.lidx_main_v7 (ix2 i j) e = ix2 i e :=
  funext fun a => Fin.ext (by match a with | ⟨0, _⟩ => rfl | ⟨1, _⟩ => rfl)
/-- … against, through the transpose of the keys, the key row j at e. -/
theorem ridx_v7 (i j : Fin 8192) (e : Fin 1024) : Read.idx_main_v6 (Read.ridx_main_v7 (ix2 i j) e) = ix2 j e :=
  funext fun a => Fin.ext (by match a with | ⟨0, _⟩ => rfl | ⟨1, _⟩ => rfl)

/-- A per-row quantity kept as a column and repeated along the row reads, at (i, j), the row's entry i. -/
theorem idx_v11_v12 (i j : Fin 8192) : Read.idx_main_v11 (Read.idx_main_v12 (ix2 i j)) = ix1 i :=
  funext fun a => Fin.ext (by match a with | ⟨0, _⟩ => rfl)
theorem idx_v16_v17 (i j : Fin 8192) : Read.idx_main_v16 (Read.idx_main_v17 (ix2 i j)) = ix1 i :=
  funext fun a => Fin.ext (by match a with | ⟨0, _⟩ => rfl)

/-- Row i's sum, summand k: the matrix at (i, k). -/
theorem idx_v15 (i k : Fin 8192) : Read.idx_main_v15 (ix1 i) k = ix2 i k :=
  funext fun a => Fin.ext (by match a with | ⟨0, _⟩ => rfl | ⟨1, _⟩ => rfl)

/-- The output at (i, d), summand j: the weight at (i, j) … -/
theorem lidx_v19 (i : Fin 8192) (d : Fin 1024) (j : Fin 8192) : Read.lidx_main_v19 (ix2 i d) j = ix2 i j :=
  funext fun a => Fin.ext (by match a with | ⟨0, _⟩ => rfl | ⟨1, _⟩ => rfl)
/-- … against the value row j at d. -/
theorem ridx_v19 (i : Fin 8192) (d : Fin 1024) (j : Fin 8192) : Read.ridx_main_v19 (ix2 i d) j = ix2 j d :=
  funext fun a => Fin.ext (by match a with | ⟨0, _⟩ => rfl | ⟨1, _⟩ => rfl)

/-! ## The three projections -/

/-- The queries: row i of the input against row e of the first weight matrix. -/
theorem ref_q (X : (⟨S8192x1024, .f32⟩ : BufTy).Contents (Elt Ideal)) (W : (⟨S1024x1024, .f32⟩ : BufTy).Contents (Elt Ideal))
    (i : Fin 8192) (e : Fin 1024) : Read.val_main_v1 (F := Ideal) X W (ix2 i e) = proj X W i e := by
  rw [Read.val_main_v1_apply]
  unfold proj
  refine Finset.sum_congr rfl fun k _ => ?_
  rw [Read.val_main_v0_apply, lidx_v1, ridx_v1]

/-- The keys: row i of the input against row e of the second weight matrix. -/
theorem ref_k (X : (⟨S8192x1024, .f32⟩ : BufTy).Contents (Elt Ideal)) (W : (⟨S1024x1024, .f32⟩ : BufTy).Contents (Elt Ideal))
    (i : Fin 8192) (e : Fin 1024) : Read.val_main_v3 (F := Ideal) X W (ix2 i e) = proj X W i e := by
  rw [Read.val_main_v3_apply]
  unfold proj
  refine Finset.sum_congr rfl fun k _ => ?_
  rw [Read.val_main_v2_apply, lidx_v3, ridx_v3]

/-- The values: row i of the input against row e of the third weight matrix. -/
theorem ref_v (X : (⟨S8192x1024, .f32⟩ : BufTy).Contents (Elt Ideal)) (W : (⟨S1024x1024, .f32⟩ : BufTy).Contents (Elt Ideal))
    (i : Fin 8192) (e : Fin 1024) : Read.val_main_v5 (F := Ideal) X W (ix2 i e) = proj X W i e := by
  rw [Read.val_main_v5_apply]
  unfold proj
  refine Finset.sum_congr rfl fun k _ => ?_
  rw [Read.val_main_v4_apply, lidx_v5, ridx_v5]

/-! ## Scores, row maximum, weights -/

/-- The score of query row i against key row j. -/
theorem ref_score (X : (⟨S8192x1024, .f32⟩ : BufTy).Contents (Elt Ideal)) (Wq Wk : (⟨S1024x1024, .f32⟩ : BufTy).Contents (Elt Ideal))
    (i j : Fin 8192) : Read.val_main_v7 (F := Ideal) X Wq Wk (ix2 i j) = score X Wq Wk i j := by
  rw [Read.val_main_v7_apply]
  unfold score
  refine Finset.sum_congr rfl fun e _ => ?_
  rw [Read.val_main_v6_apply, lidx_v7, ridx_v7, ref_q, ref_k]

/-- The host's maximum over row i: the fold of `max` over the row's scores, from the word of −∞. -/
theorem ref_rowmax (X : (⟨S8192x1024, .f32⟩ : BufTy).Contents (Elt Ideal)) (Wq Wk : (⟨S1024x1024, .f32⟩ : BufTy).Contents (Elt Ideal))
    (i : Fin 8192) : Read.val_main_v8 (F := Ideal) X Wq Wk (ix1 i)
      = (Finset.univ : Finset (Fin 8192)).fold max negInf (fun j => score X Wq Wk i j) := by
  unfold Read.val_main_v8
  refine (Cert.LibRowwise.hostRowMax_apply (φ := .f32) (a := 8192) (b := 8192) (Read.val_main_v7 (F := Ideal) X Wq Wk)
    (Read.val_main_cst (F := Ideal)) reducesTo_S8192x8192_S8192_d1 (by decide) h_S_ i).trans ?_
  exact congrArg (fun f => (Finset.univ : Finset (Fin 8192)).fold max negInf f) (funext fun j => ref_score X Wq Wk i j)

/-- The row's maximum as the reference takes it: once more against a broadcast −∞. -/
theorem ref_max (X : (⟨S8192x1024, .f32⟩ : BufTy).Contents (Elt Ideal)) (Wq Wk : (⟨S1024x1024, .f32⟩ : BufTy).Contents (Elt Ideal))
    (i : Fin 8192) : Read.val_main_v10 (F := Ideal) X Wq Wk (ix1 i) = refMax (fun j => score X Wq Wk i j) := by
  rw [Read.val_main_v10_apply, Read.val_main_v9_apply, ref_rowmax]
  rfl

/-- The numerator of key j's weight in row i. -/
theorem ref_num (X : (⟨S8192x1024, .f32⟩ : BufTy).Contents (Elt Ideal)) (Wq Wk : (⟨S1024x1024, .f32⟩ : BufTy).Contents (Elt Ideal))
    (i j : Fin 8192) : Read.val_main_v14 (F := Ideal) X Wq Wk (ix2 i j) = refNum (fun j => score X Wq Wk i j) j := by
  rw [Read.val_main_v14_apply, Read.val_main_v13_apply, Read.val_main_v12_apply, Read.val_main_v11_apply, idx_v11_v12,
    ref_max, ref_score]
  rfl

/-- The denominator of row i: the zero word plus the sum of the numerators. -/
theorem ref_den (X : (⟨S8192x1024, .f32⟩ : BufTy).Contents (Elt Ideal)) (Wq Wk : (⟨S1024x1024, .f32⟩ : BufTy).Contents (Elt Ideal))
    (i : Fin 8192) : Read.val_main_v15 (F := Ideal) X Wq Wk (ix1 i) = refDen (fun j => score X Wq Wk i j) := by
  rw [Read.val_main_v15_apply]
  unfold refDen
  refine congrArg (zero + ·) (Finset.sum_congr rfl fun k _ => ?_)
  rw [idx_v15, ref_num]

/-- The weight of key j in row i. -/
theorem ref_weight (X : (⟨S8192x1024, .f32⟩ : BufTy).Contents (Elt Ideal)) (Wq Wk : (⟨S1024x1024, .f32⟩ : BufTy).Contents (Elt Ideal))
    (i j : Fin 8192) : Read.val_main_v18 (F := Ideal) X Wq Wk (ix2 i j)
      = Ideal.div (refNum (fun j => score X Wq Wk i j) j) (refDen (fun j => score X Wq Wk i j)) := by
  rw [Read.val_main_v18_apply, Read.val_main_v17_apply, Read.val_main_v16_apply, idx_v16_v17, ref_den, ref_num]
  rfl

/-! ## The result -/

/-- The reference's result at (i, d) is the one-pass attention output. -/
theorem ref_attn (X : (⟨Cert.ReferenceIdeal.S8192x1024, .f32⟩ : BufTy).Contents (Elt Ideal)) (Wq Wk Wv : (⟨Cert.ReferenceIdeal.S1024x1024, .f32⟩ : BufTy).Contents (Elt Ideal)) (i : Fin 8192) (d : Fin 1024) :
    Cert.ReferenceIdeal.Read.val_main_v19 (F := Ideal) X Wq Wk Wv (ValueIdx.ix2 i d) = Cert.AttnSpec.attnAt X Wq Wk Wv i d := by
  rw [Read.val_main_v19_apply]
  unfold attnAt refOut
  refine Finset.sum_congr rfl fun j _ => ?_
  rw [lidx_v19, ridx_v19, ref_weight, ref_v]

/-! ## The reference runs -/

/-- The reference terminates with its arguments unchanged: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.RefRead

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.Finite.lean ====
/-
  The finiteness precondition, decoded: every entry of each of the four argument arrays is a real.

  The precondition is printed as the conjunction ("and" of one-bit words) of four all-reduces, one per argument, each the
  reduce by "and" of the comparison |a| < +∞ over the whole array. The conjunction being 1 makes each all-reduce 1, and
  each all-reduce being 1 makes every entry of its array a real.
-/
import proofs.«111051_j6975026889338_2_alg».proof.Defs
import proofs.«111051_j6975026889338_2_alg».proof.Proof.LibFiniteDecode

noncomputable section

namespace Cert.Finite

open Idealize.ShloMosaic Idealize.ShloMosaic.ValueIdx Idealize.SL.Sem

/-- Under the kernel's precondition, on every device, every entry of every argument array is a real. -/
theorem args_real [Cert.KernelIdeal.Facts] [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal))
    ∧ (∀ i, ∃ r : ℝ, m ((c.tc : Thread Cert.KernelIdeal.nD Cert.KernelIdeal.τ).loc Cert.KernelIdeal.main_arg2) i = ((r : ℝ) : EReal))
    ∧ (∀ i, ∃ r : ℝ, m ((c.tc : Thread Cert.KernelIdeal.nD Cert.KernelIdeal.τ).loc Cert.KernelIdeal.main_arg3) i = ((r : ℝ) : EReal)) := by
  have h0 := congrFun (h c) ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => Cert.LibFiniteDecode.real_of_all _ _ _ _ e0 i, fun i => Cert.LibFiniteDecode.real_of_all _ _ _ _ e1 i,
    fun i => Cert.LibFiniteDecode.real_of_all _ _ _ _ e2 i, fun i => Cert.LibFiniteDecode.real_of_all _ _ _ _ e3 i⟩

end Cert.Finite

end
-- ==== Proof.lean ====
/-
  The certificate's five claims.

  Frames: the word-level and the idealized program are each three segments — two host operations, the projection launch,
  the attention launch — run to the end with every unscoped buffer followed from boundary to boundary; no segment writes
  an argument (Proof/K_Run.lean, Proof/KI_Run.lean). The reference's frame is its run with the result dropped. The ideal
  pass rewrote nothing, so `preserves` asks nothing.

  Equal results at exact arithmetic. The kernel projects the input once against the three stacked weight matrices and
  then, for every query row, walks the keys in sixteen chunks with a running maximum, denominator and unnormalised output,
  dividing once at the end; the reference normalises every row of the whole score matrix in one pass and multiplies by
  the values. The kernel's result array is read block by block as ONE function of the projected arrays
  (Proof/KI_Value1.lean), the projected arrays as row-by-row dot products of the arguments (Proof/KI_Value0.lean), the
  reference's result index by index (Proof/RefRead.lean). For finite inputs every score and value is a real number, and
  then the chunked walk and the one-pass form are the same number (Proof/OnlineSoftmax.lean): rescaling by
  exp(m_old − m_new) moves the reference point of every exponential already summed, the first chunk's factor exp(−∞) = 0
  meets zero sums, the denominator is positive, and dividing a sum is summing the quotients.
-/
import proofs.«111051_j6975026889338_2_alg».proof.Defs
import proofs.«111051_j6975026889338_2_alg».proof.Proof.Gen.Kernel
import proofs.«111051_j6975026889338_2_alg».proof.Proof.Gen.KernelIdeal
import proofs.«111051_j6975026889338_2_alg».proof.Proof.Gen.ReferenceIdeal
import proofs.«111051_j6975026889338_2_alg».proof.Proof.Gen.Pre_finite_inputs
import proofs.«111051_j6975026889338_2_alg».proof.Proof.K_Run
import proofs.«111051_j6975026889338_2_alg».proof.Proof.KI_Run
import proofs.«111051_j6975026889338_2_alg».proof.Proof.KI_Value0
import proofs.«111051_j6975026889338_2_alg».proof.Proof.KI_Value1
import proofs.«111051_j6975026889338_2_alg».proof.Proof.RefRead
import proofs.«111051_j6975026889338_2_alg».proof.Proof.Finite
import proofs.«111051_j6975026889338_2_alg».proof.Proof.OnlineSoftmax
import proofs.«111051_j6975026889338_2_alg».proof.Proof.AttnSpec
import Idealize.ShloMosaic.Adequacy
import Idealize.ShloMosaic.Init

noncomputable section

namespace Cert.Proof

open Idealize.ShloMosaic Idealize.ShloMosaic.TcCoe Idealize.ShloMosaic.ValueIdx Idealize.SL.Sem
open Cert.AttnSpec
open scoped BigOperators

variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Frm.frame (F := Bits) m ρ
theorem frame_ki : Cert.frame_KernelIdeal := fun m ρ _ => Cert.KernelIdeal.Frm.frame (F := Ideal) m ρ
theorem frame_ri : Cert.frame_ReferenceIdeal := Cert.RefRead.frame_ri
theorem preserves : Cert.preserves_Kernel_KernelIdeal := trivial

section Value
open Cert.KernelIdeal Cert.KernelIdeal.Gen Cert.KernelIdeal.Frm

/-- The kernel's result at (i, d), for finite inputs: the one-pass attention output of the arguments. -/
theorem kernel_value (m : (ℓ : Loc nD τ sig) → Buf (Elt Ideal) ℓ) (ρ : Dev nD → PrngReg) (hpre : Cert.Pre_KernelIdeal m)
    (c : Dev nD) (i : Fin 8192) (d : Fin 1024) :
    (dat1 (F := Ideal) (V2 m ρ) c).arrAt 3 cfg1.N (ix2 i d)
      = attnAt (m ((c.tc : Thread nD τ).loc main_arg0)) (m ((c.tc : Thread nD τ).loc main_arg1))
          (m ((c.tc : Thread nD τ).loc main_arg2)) (m ((c.tc : Thread nD τ).loc main_arg3)) i d := by
  rw [Cert.KernelIdeal.Val1.final3 (V2 m ρ) c]
  obtain ⟨r0, r1, r2, r3⟩ := Cert.Finite.args_real m hpre c
  show Cert.KernelIdeal.Val1.flashAt (V2 m ρ c main_v2_0) (V2 m ρ c main_v2_1) (V2 m ρ c main_v2_2) i d = _
  exact Cert.KernelIdeal.Val1.flashAt_eq_attnAt _ _ _ _ _ _ _
    (fun a e => (congrFun (W2_arr m ρ c 2) (ix2 a e)).trans (Cert.KernelIdeal.Val0.proj_q m ρ c a e))
    (fun a e => (congrFun (W2_arr m ρ c 3) (ix2 a e)).trans (Cert.KernelIdeal.Val0.proj_k m ρ c a e))
    (fun a e => (congrFun (W2_arr m ρ c 4) (ix2 a e)).trans (Cert.KernelIdeal.Val0.proj_v m ρ c a e))
    r0 r1 r2 r3 i d

end Value

/-- Both idealized programs, from memories agreeing on the arguments, end with equal results. -/
theorem algebraic : Cert.algebraic_KernelIdeal_ReferenceIdeal := by
  intro m ρ m' ρ' hpre hagree
  refine ⟨fun c => (Cert.KernelIdeal.Frm.dat1 (F := Ideal) (Cert.KernelIdeal.Frm.V2 m ρ) c).arrAt 3 Cert.KernelIdeal.cfg1.N,
    Cert.KernelIdeal.Frm.run_value (F := Ideal) m ρ, ?_⟩
  refine (θ_run Cert.ReferenceIdeal.defs _ _).mono (fun _ h c => ⟨((h c).1.trans (Cert.ReferenceIdeal.Read.val_main_v19_eq _ _ _ _)).trans ?_, (h c).2⟩)
    (Cert.ReferenceIdeal.Value.run (F := Ideal) m' ρ')
  funext y
  obtain ⟨i, d, rfl⟩ : ∃ (i : Fin 8192) (d : Fin 1024), y = ix2 i d := ⟨y 0, y 1, eq_ix2 y⟩
  rw [Cert.RefRead.ref_attn, (hagree c).1, (hagree c).2.1, (hagree c).2.2.1, (hagree c).2.2.2]
  exact (kernel_value m ρ hpre c i d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
